-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x1024 : Shape := ⟨3, ![8, 2048, 1024]⟩
abbrev S1024x1024 : Shape := ⟨2, ![1024, 1024]⟩
abbrev S8x2048x2048 : Shape := ⟨3, ![8, 2048, 2048]⟩
abbrev S_ : Shape := ⟨0, ![]⟩

class Facts : Prop where
  bcast_S_S8x2048x1024 : S_.BroadcastsInDim S8x2048x1024 (![] : Fin 0 → Fin S8x2048x1024.rank)
  reducesTo_S8x2048x1024_S_d0_1_2 : S8x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  main_v18

def fn {F : FTy → Type} [FloatOps F] (main_arg0 : FVec F S8x2048x1024 .f32) (main_arg1 : FVec F S1024x1024 .f32) (main_arg2 : FVec F S1024x1024 .f32) (main_arg3 : FVec F S1024x1024 .f32) (main_arg4 : IVec S8x2048x2048 32) : IVec S_ 1 :=
  let main_v0 : FVec F S8x2048x1024 .f32 := Host.absf main_arg0
  let main_cst : FVec F S_ .f32 := constant S_ .f32 0x7F800000#32
  let main_v1 : FVec F S8x2048x1024 .f32 := broadcastInDim S8x2048x1024 ![] bcast_S_S8x2048x1024 main_cst
  let main_v2 : IVec S8x2048x1024 1 := cmpf .olt main_v0 main_v1
  let main_c : IVec S_ 1 := constantI S_ 1 1#1
  let main_v3 : IVec S_ 1 := (fun x v => Host.reduce IntOp.andi x v reducesTo_S8x2048x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_v13 main_v16
-- ==== Kernel.lean ====
abbrev S8x2048x1024 : Shape := ⟨3, ![8, 2048, 1024]⟩
abbrev S1024x1024 : Shape := ⟨2, ![1024, 1024]⟩
abbrev S8x2048x2048 : Shape := ⟨3, ![8, 2048, 2048]⟩
abbrev S1x512x1024 : Shape := ⟨3, ![1, 512, 1024]⟩
abbrev S512x1024 : Shape := ⟨2, ![512, 1024]⟩
abbrev S1x2048x1024 : Shape := ⟨3, ![1, 2048, 1024]⟩
abbrev S1x256x1024 : Shape := ⟨3, ![1, 256, 1024]⟩
abbrev S1x2048x256 : Shape := ⟨3, ![1, 2048, 256]⟩
abbrev S2048x1024 : Shape := ⟨2, ![2048, 1024]⟩
abbrev S256x1024 : Shape := ⟨2, ![256, 1024]⟩
abbrev S2048x256 : Shape := ⟨2, ![2048, 256]⟩
abbrev S256 : Shape := ⟨1, ![256]⟩
abbrev S1x256 : Shape := ⟨2, ![1, 256]⟩

abbrev nBuf : Space → Nat
  | .hbm => 9
  | .vmem => 21
  | .smem => 0
  | _ => 0

abbrev bufTy : (tb : Table) → Fin (tcTables nBuf tb) → BufTy
  | .hbm, ⟨0, _⟩ => ⟨S8x2048x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S8x2048x2048, .i32⟩
  | .hbm, ⟨5, _⟩ => ⟨S8x2048x1024, .f32⟩
  | .hbm, ⟨6, _⟩ => ⟨S8x2048x1024, .f32⟩
  | .hbm, ⟨7, _⟩ => ⟨S8x2048x1024, .bf16⟩
  | .hbm, ⟨8, _⟩ => ⟨S8x2048x1024, .f32⟩
  | .local _ .vmem, ⟨0, _⟩ => ⟨S1x512x1024, .f32⟩
  | .local _ .vmem, ⟨1, _⟩ => ⟨S1x512x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1x512x1024, .f32⟩
  | .local _ .vmem, ⟨6, _⟩ => ⟨S1x512x1024, .f32⟩
  | .local _ .vmem, ⟨7, _⟩ => ⟨S1x512x1024, .f32⟩
  | .local _ .vmem, ⟨8, _⟩ => ⟨S1x512x1024, .f32⟩
  | .local _ .vmem, ⟨9, _⟩ => ⟨S1x512x1024, .bf16⟩
  | .local _ .vmem, ⟨10, _⟩ => ⟨S1x512x1024, .bf16⟩
  | .local _ .vmem, ⟨11, _⟩ => ⟨S1x2048x1024, .f32⟩
  | .local _ .vmem, ⟨12, _⟩ => ⟨S1x2048x1024, .f32⟩
  | .local _ .vmem, ⟨13, _⟩ => ⟨S1x256x1024, .f32⟩
  | .local _ .vmem, ⟨14, _⟩ => ⟨S1x256x1024, .f32⟩
  | .local _ .vmem, ⟨15, _⟩ => ⟨S1x256x1024, .bf16⟩
  | .local _ .vmem, ⟨16, _⟩ => ⟨S1x256x1024, .bf16⟩
  | .local _ .vmem, ⟨17, _⟩ => ⟨S1x2048x256, .i32⟩
  | .local _ .vmem, ⟨18, _⟩ => ⟨S1x2048x256, .i32⟩
  | .local _ .vmem, ⟨19, _⟩ => ⟨S1x2048x1024, .f32⟩
  | .local _ .vmem, ⟨20, _⟩ => ⟨S1x2048x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg3_1 : Ref sig .tc := ⟨.vmem, 18, rfl⟩
abbrev cc1_stg4_0 : Ref sig .tc := ⟨.vmem, 19, rfl⟩
abbrev cc1_stg4_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem3_1 : DmaSem sig := 18
abbrev cc1_sem4_0 : DmaSem sig := 19
abbrev cc1_sem4_1 : DmaSem sig := 20

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev grid1 : Pipeline.Grid := ⟨2, ![8, 8], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x2048x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1x256x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x256x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x2048x256 .i32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x2048x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

class Facts₀ : Prop where
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  shapeCasts_S512x1024_S1x512x1024 : S512x1024.ShapeCasts S1x512x1024
  packedbf16_S1x512x1024_S1x512x1024_0_0_0 : (Rect.unit (s := S1x512x1024) ![0, 0, 0] S1x512x1024.size inb_S1x512x1024_S1x512x1024_0_0_0).PackedRows (EltTy.packing .bf16)
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  shapeCasts_S2048x1024_S1x2048x1024 : S2048x1024.ShapeCasts S1x2048x1024
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  inb_S1x2048x256_S1x2048x256_0_0_0 : ∀ a, (![0, 0, 0] : Fin 3 → Nat) a + S1x2048x256.size a ≤ S1x2048x256.size a
  h_S1x2048x256 : 0 < S1x2048x256.numel
  shapeCasts_S1x2048x256_S2048x256 : S1x2048x256.ShapeCasts S2048x256
  reduces_S2048x256_S256 : S2048x256.Reduces [0] S256
  shapeCasts_S256_S1x256 : S256.ShapeCasts S1x256
  broadcasts_S1x256_S2048x256 : S1x256.Broadcasts S2048x256
  dot_S512x1024_S1024x1024_S512x1024_1_0_0_1_n_n_wf : DotDims.WF S512x1024 S1024x1024 S512x1024 [1] [0] [0] [1] [] []
  dot_S2048x1024_S256x1024_S2048x256_1_1_0_0_n_n_wf : DotDims.WF S2048x1024 S256x1024 S2048x256 [1] [1] [0] [0] [] []
  dot_S2048x256_S256x1024_S2048x1024_1_0_0_1_n_n_wf : DotDims.WF S2048x256 S256x1024 S2048x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S8x2048x1024.size a
  hwx0_0 : ∀ i : grid0.Coords, EltTy.bits .f32 = 32 ∨ (Rect.block (s := S8x2048x1024) S1x512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .f32 = 32 ∨ (Rect.block (s := S1024x1024) S1024x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .f32 = 32 ∨ (Rect.block (s := S1024x1024) S1024x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .f32 = 32 ∨ (Rect.block (s := S1024x1024) S1024x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x1024.size a ≤ S8x2048x1024.size a
  hwx0_4 : ∀ i : grid0.Coords, EltTy.bits .f32 = 32 ∨ (Rect.block (s := S8x2048x1024) S1x512x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512x1024.size a ≤ S8x2048x1024.size a
  hwx0_5 : ∀ i : grid0.Coords, EltTy.bits .f32 = 32 ∨ (Rect.block (s := S8x2048x1024) S1x512x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x512x1024.size a ≤ S8x2048x1024.size a
  hwx0_6 : ∀ i : grid0.Coords, EltTy.bits .bf16 = 32 ∨ (Rect.block (s := S8x2048x1024) S1x512x1024.size (cc0_transform_6 i) (hinb0_6 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x2048x1024.size a ≤ S8x2048x1024.size a
  hwx1_0 : ∀ i : grid1.Coords, EltTy.bits .f32 = 32 ∨ (Rect.block (s := S8x2048x1024) S1x2048x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x256x1024.size a ≤ S8x2048x1024.size a
  hwx1_1 : ∀ i : grid1.Coords, EltTy.bits .f32 = 32 ∨ (Rect.block (s := S8x2048x1024) S1x256x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x256x1024.size a ≤ S8x2048x1024.size a
  hwx1_2 : ∀ i : grid1.Coords, EltTy.bits .bf16 = 32 ∨ (Rect.block (s := S8x2048x1024) S1x256x1024.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x2048x256.size a ≤ S8x2048x2048.size a
  hwx1_3 : ∀ i : grid1.Coords, EltTy.bits .i32 = 32 ∨ (Rect.block (s := S8x2048x2048) S1x2048x256.size (cc1_transform_3 i) (hinb1_3 i)).WholeWords (EltTy.packing .i32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x2048x1024.size a ≤ S8x2048x1024.size a
  hwx1_4 : ∀ i : grid1.Coords, EltTy.bits .f32 = 32 ∨ (Rect.block (s := S8x2048x1024) S1x2048x1024.size (cc1_transform_4 i) (hinb1_4 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S2048x1024_S256x1024_S2048x256_1_1_0_0_n_n : DotDims S2048x1024 S256x1024 S2048x256 where
  lhsContracting := [1]
  rhsContracting := [1]
  lhsNonContracting := [0]
  rhsNonContracting := [0]
  lhsBatch := []
  rhsBatch := []
  wf := dot_S2048x1024_S256x1024_S2048x256_1_1_0_0_n_n_wf
def dot_S2048x256_S256x1024_S2048x1024_1_0_0_1_n_n : DotDims S2048x256 S256x1024 S2048x1024 where
  lhsContracting := [1]
  rhsContracting := [0]
  lhsNonContracting := [0]
  rhsNonContracting := [1]
  lhsBatch := []
  rhsBatch := []
  wf := dot_S2048x256_S256x1024_S2048x1024_1_0_0_1_n_n_wf

abbrev win0_0 : Pipeline.Window sig grid0 :=
  Pipeline.Window.ofSpec (Memref.whole main_arg0) S1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0_0) S1x512x1024.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_1) S1x512x1024.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v0_2) S1x512x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v0_0) S1x2048x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0_1) S1x256x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v0_2) S1x256x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S1x2048x256.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v1) S1x2048x1024.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S8x2048x1024 : Shape := ⟨3, ![8, 2048, 1024]⟩
abbrev S1024x1024 : Shape := ⟨2, ![1024, 1024]⟩
abbrev S8x2048x2048 : Shape := ⟨3, ![8, 2048, 2048]⟩
abbrev S_ : Shape := ⟨0, ![]⟩
abbrev S8x2048 : Shape := ⟨2, ![8, 2048]⟩
abbrev S8x1x2048 : Shape := ⟨3, ![8, 1, 2048]⟩

abbrev nBuf : Space → Nat
  | .hbm => 30
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S8x2048x2048, .i32⟩
  | .hbm, ⟨5, _⟩ => ⟨S8x2048x1024, .f32⟩
  | .hbm, ⟨6, _⟩ => ⟨S8x2048x1024, .f32⟩
  | .hbm, ⟨7, _⟩ => ⟨S8x2048x1024, .f32⟩
  | .hbm, ⟨8, _⟩ => ⟨S8x2048x2048, .f32⟩
  | .hbm, ⟨9, _⟩ => ⟨S_, .i32⟩
  | .hbm, ⟨10, _⟩ => ⟨S8x2048x2048, .i32⟩
  | .hbm, ⟨11, _⟩ => ⟨S8x2048x2048, .i1⟩
  | .hbm, ⟨12, _⟩ => ⟨S_, .f32⟩
  | .hbm, ⟨13, _⟩ => ⟨S8x2048x2048, .f32⟩
  | .hbm, ⟨14, _⟩ => ⟨S8x2048x2048, .f32⟩
  | .hbm, ⟨15, _⟩ => ⟨S_, .f32⟩
  | .hbm, ⟨16, _⟩ => ⟨S8x2048, .f32⟩
  | .hbm, ⟨17, _⟩ => ⟨S_, .f32⟩
  | .hbm, ⟨18, _⟩ => ⟨S8x2048, .f32⟩
  | .hbm, ⟨19, _⟩ => ⟨S8x2048, .f32⟩
  | .hbm, ⟨20, _⟩ => ⟨S8x1x2048, .f32⟩
  | .hbm, ⟨21, _⟩ => ⟨S8x2048x2048, .f32⟩
  | .hbm, ⟨22, _⟩ => ⟨S8x2048x2048, .f32⟩
  | .hbm, ⟨23, _⟩ => ⟨S8x2048x2048, .f32⟩
  | .hbm, ⟨24, _⟩ => ⟨S_, .f32⟩
  | .hbm, ⟨25, _⟩ => ⟨S8x2048, .f32⟩
  | .hbm, ⟨26, _⟩ => ⟨S8x1x2048, .f32⟩
  | .hbm, ⟨27, _⟩ => ⟨S8x2048x2048, .f32⟩
  | .hbm, ⟨28, _⟩ => ⟨S8x2048x2048, .f32⟩
  | .hbm, ⟨29, _⟩ => ⟨S8x2048x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_call0_v0 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩

abbrev nD : Nat := 1
abbrev τ : Topo := Topo.v7x

variable {F : FTy → Type} [FloatOps F]

class Facts₀ : Prop where
  bcast_S_S8x2048x2048 : S_.BroadcastsInDim S8x2048x2048 (![] : Fin 0 → Fin S8x2048x2048.rank)
  reducesTo_S8x2048x2048_S8x2048_d1 : S8x2048x2048.ReducesTo [1] S8x2048
  h_S_ : 0 < S_.numel
  bcast_S_S8x2048 : S_.BroadcastsInDim S8x2048 (![] : Fin 0 → Fin S8x2048.rank)
  bcast_S8x2048_S8x1x2048_0_2 : S8x2048.BroadcastsInDim S8x1x2048 (![0, 2] : Fin 2 → Fin S8x1x2048.rank)
  bcast_S8x1x2048_S8x2048x2048_0_1_2 : S8x1x2048.BroadcastsInDim S8x2048x2048 (![0, 1, 2] : Fin 3 → Fin S8x2048x2048.rank)
  dot_S8x2048x1024_S1024x1024_S8x2048x1024_2_0_01_1_n_n_wf : DotDims.WF S8x2048x1024 S1024x1024 S8x2048x1024 [2] [0] [0, 1] [1] [] []
  dot_S8x2048x1024_S8x2048x1024_S8x2048x2048_2_2_1_1_0_0_wf : DotDims.WF S8x2048x1024 S8x2048x1024 S8x2048x2048 [2] [2] [1] [1] [0] [0]
  dot_S8x2048x2048_S8x2048x1024_S8x2048x1024_2_1_1_2_0_0_wf : DotDims.WF S8x2048x2048 S8x2048x1024 S8x2048x1024 [2] [1] [1] [2] [0] [0]

variable [Facts₀]

def dot_S8x2048x1024_S1024x1024_S8x2048x1024_2_0_01_1_n_n : DotDims S8x2048x1024 S1024x1024 S8x2048x1024 where
  lhsContracting := [2]
  rhsContracting := [0]
  lhsNonContracting := [0, 1]
  rhsNonContracting := [1]
  lhsBatch := []
  rhsBatch := []
  wf := dot_S8x2048x1024_S1024x1024_S8x2048x1024_2_0_01_1_n_n_wf
def dot_S8x2048x1024_S8x2048x1024_S8x2048x2048_2_2_1_1_0_0 : DotDims S8x2048x1024 S8x2048x1024 S8x2048x2048 where
  lhsContracting := [2]
  rhsContracting := [2]
  lhsNonContracting := [1]
  rhsNonContracting := [1]
  lhsBatch := [0]
  rhsBatch := [0]
  wf := dot_S8x2048x1024_S8x2048x1024_S8x2048x2048_2_2_1_1_0_0_wf
def dot_S8x2048x2048_S8x2048x1024_S8x2048x1024_2_1_1_2_0_0 : DotDims S8x2048x2048 S8x2048x1024 S8x2048x1024 where
  lhsContracting := [2]
  rhsContracting := [1]
  lhsNonContracting := [1]
  rhsNonContracting := [2]
  lhsBatch := [0]
  rhsBatch := [0]
  wf := dot_S8x2048x2048_S8x2048x1024_S8x2048x1024_2_1_1_2_0_0_wf

class Facts : Prop extends Facts₀ where

variable [Facts]
-- ==== Proof.Spec.lean ====
/-
  The mathematics both programs compute, written once, index by index, over the extended reals.

  From x : [8, 2048, 1024], three weight matrices [1024, 1024] and an integer mask [8, 2048, 2048]:
  the projections  proj x w (b, n, e) = ∑ k, x (b, n, k) · w (k, e);  the logit of query n against key m
  in batch b,  ∑ d, q (b, n, d) · k (b, m, d),  replaced by a large negative constant where the mask word is
  zero; for each key column m the weights of the queries,  exp (s n − max s) / ∑ n', exp (s n' − max s)  over
  the column s of that key's logits (a softmax along the QUERY axis); and the result
  ∑ m, weight (b, n, m) · v (b, m, e).

  A sum over the 2048 keys taken as eight consecutive blocks of 256, each block's sum added to the running
  total started from zero, is the same sum (part_zero, part_succ, part_eight): addition of extended reals
  is commutative and associative, so no finiteness is used.
-/
import Idealize.ShloMosaic.Lib.ValueIdx
import Idealize.ShloMosaic.PureOps.Ideal.Laws

noncomputable section

namespace Cert.Attn

open Idealize.ShloMosaic Idealize.ShloMosaic.ValueIdx
open scoped BigOperators

/-- The value a maximum over a column starts from: the word of minus infinity, left unevaluated. -/
def negInf : EReal := Ideal.ofBits .f32 0xFF800000#32
/-- The value a masked logit is replaced by: the word of about −10¹², left unevaluated. -/
def negBig : EReal := Ideal.ofBits .f32 0xD368D4A5#32

/-- The maximum of a column of N numbers, folded from negInf. -/
def colMax {N : ℕ} (s : Fin N → EReal) : EReal := (Finset.univ : Finset (Fin N)).fold max negInf s

/-- The softmax weight of entry n within the column s. -/
def weight {N : ℕ} (s : Fin N → EReal) (n : Fin N) : EReal :=
  Ideal.div (Ideal.exp (s n - colMax s)) (∑ n' : Fin N, Ideal.exp (s n' - colMax s))

/-- A logit v under mask word w: the large negative constant where the word is zero. -/
def maskOr (w : BitVec 32) (v : EReal) : EReal := Scalar.select (IntOp.cmpi .eq w 0#32) negBig v

abbrev SX : Shape := ⟨3, ![8, 2048, 1024]⟩
abbrev SW : Shape := ⟨2, ![1024, 1024]⟩
abbrev SM : Shape := ⟨3, ![8, 2048, 2048]⟩

/-- A projection of x by a weight matrix, at batch b, row n, feature e. -/
def proj (x : SX.Idx → EReal) (w : SW.Idx → EReal) (b : Fin 8) (n : Fin 2048) (e : Fin 1024) : EReal :=
  ∑ k : Fin 1024, x (ix3 b n k) * w (ix2 k e)

section
variable (x : SX.Idx → EReal) (wq wk wv : SW.Idx → EReal) (mask : SM.Idx → BitVec 32)

/-- The masked logit of query n against key m in batch b. -/
def logit (b : Fin 8) (n m : Fin 2048) : EReal :=
  maskOr (mask (ix3 b n m)) (∑ d : Fin 1024, proj x wq b n d * proj x wk b m d)

/-- One key's term of the result: the weight of query n in key m's column times v (b, m, e). -/
def term (b : Fin 8) (n : Fin 2048) (e : Fin 1024) (m : Fin 2048) : EReal :=
  weight (fun n' => logit x wq wk mask b n' m) n * proj x wv b m e

/-- The result at batch b, query n, feature e. -/
def out (b : Fin 8) (n : Fin 2048) (e : Fin 1024) : EReal := ∑ m : Fin 2048, term x wq wk wv mask b n e m

/-- The result as an array. -/
def result : SX.Idx → EReal := fun i => out x wq wk wv mask (i 0) (i 1) (i 2)

end

/-! ## A sum over 2048 keys, block by block -/

/-- A function of a key, continued by zero past the last key. -/
def ext (g : Fin 2048 → EReal) (m : ℕ) : EReal := if h : m < 2048 then g ⟨m, h⟩ else 0

/-- The sum over the first k blocks of 256 keys. -/
def part (g : Fin 2048 → EReal) (k : ℕ) : EReal := ∑ m ∈ Finset.range (256 * k), ext g m

theorem part_zero (g : Fin 2048 → EReal) : part g 0 = 0 := by
  unfold part; rw [Nat.mul_zero, Finset.range_zero, Finset.sum_empty]

/-- One more block: the running total plus that block's 256 terms. -/
theorem part_succ (g : Fin 2048 → EReal) (k : ℕ) :
    part g (k + 1) = part g k + ∑ j : Fin 256, ext g (256 * k + j.val) := by
  unfold part
  rw [Nat.mul_succ, Finset.sum_range_add]
  congr 1

/-- All eight blocks: the sum over every key. -/
theorem part_eight (g : Fin 2048 → EReal) : part g 8 = ∑ m : Fin 2048, g m := by
  unfold part
  rw [show 256 * 8 = 2048 from rfl, Finset.sum_range]
  exact Finset.sum_congr rfl fun m _ => dif_pos m.isLt

/-- Inside block k < 8 a key 256·k + j is a key. -/
theorem ext_block (g : Fin 2048 → EReal) (k : ℕ) (hk : k < 8) (j : Fin 256) :
    ext g (256 * k + j.val) = g ⟨256 * k + j.val, by have := j.isLt; omega⟩ := by
  unfold ext
  exact dif_pos (by have := j.isLt; omega)

end Cert.Attn

end
-- ==== Proof.RefSide.lean ====
/-
  The reference's result, read index by index: it is the array Attn.result of its five arguments.

  Stage by stage, at explicit coordinates (b, n, m) or (b, n, e): the three projections and the logits are plain
  sums; the mask picks the large negative constant; the maximum over the queries of a key's column is a fold of max
  from minus infinity (taking the maximum with minus infinity once more changes nothing); the exponentials, their
  column sum started from zero, the quotient, and the last product summed over the keys.
-/
import proofs.«156849_j523986010551_2_alg».proof.Proof.Gen.ReferenceIdeal.Run
import proofs.«156849_j523986010551_2_alg».proof.Proof.Gen.ReferenceIdeal.Read
import proofs.«156849_j523986010551_2_alg».proof.Proof.Spec

noncomputable section

namespace Cert.ReferenceIdeal.RefValue

open Cert.ReferenceIdeal Cert.ReferenceIdeal.Gen Cert.ReferenceIdeal.Read Idealize.ShloMosaic Idealize.ShloMosaic.ValueIdx Cert.Attn
open scoped BigOperators

variable (x : (⟨S8x2048x1024, .f32⟩ : BufTy).Contents (Elt Ideal)) (wq wk wv : (⟨S1024x1024, .f32⟩ : BufTy).Contents (Elt Ideal))
  (mask : (⟨S8x2048x2048, .i32⟩ : BufTy).Contents (Elt Ideal))

/-- Taking the maximum with the fold's own starting value once more changes nothing. -/
theorem max_start_colMax {N : ℕ} (s : Fin N → EReal) : max negInf (colMax s) = colMax s :=
by
  unfold colMax
  exact max_eq_right ((Finset.le_fold_max negInf).2 (Or.inl le_rfl))

theorem v0_at (b : Fin 8) (n : Fin 2048) (e : Fin 1024) : val_main_v0 (F := Ideal) x wq (ix3 b n e) = proj x wq b n e := by
  rw [val_main_v0_apply]
  refine Finset.sum_congr rfl fun k _ => ?_
  have el : lidx_main_v0 (ix3 b n e) k = ix3 b n k := funext fun a => Fin.ext (by
    match a with | ⟨0, _⟩ => rfl | ⟨1, _⟩ => rfl | ⟨2, _⟩ => rfl)
  have er : ridx_main_v0 (ix3 b n e) k = ix2 k e := funext fun a => Fin.ext (by
    match a with | ⟨0, _⟩ => rfl | ⟨1, _⟩ => rfl)
  rw [el, er]

theorem v1_at (b : Fin 8) (n : Fin 2048) (e : Fin 1024) : val_main_v1 (F := Ideal) x wk (ix3 b n e) = proj x wk b n e := by
  rw [val_main_v1_apply]
  refine Finset.sum_congr rfl fun k _ => ?_
  have el : lidx_main_v1 (ix3 b n e) k = ix3 b n k := funext fun a => Fin.ext (by
    match a with | ⟨0, _⟩ => rfl | ⟨1, _⟩ => rfl | ⟨2, _⟩ => rfl)
  have er : ridx_main_v1 (ix3 b n e) k = ix2 k e := funext fun a => Fin.ext (by
    match a with | ⟨0, _⟩ => rfl | ⟨1, _⟩ => rfl)
  rw [el, er]

theorem v2_at (b : Fin 8) (n : Fin 2048) (e : Fin 1024) : val_main_v2 (F := Ideal) x wv (ix3 b n e) = proj x wv b n e := by
  rw [val_main_v2_apply]
  refine Finset.sum_congr rfl fun k _ => ?_
  have el : lidx_main_v2 (ix3 b n e) k = ix3 b n k := funext fun a => Fin.ext (by
    match a with | ⟨0, _⟩ => rfl | ⟨1, _⟩ => rfl | ⟨2, _⟩ => rfl)
  have er : ridx_main_v2 (ix3 b n e) k = ix2 k e := funext fun a => Fin.ext (by
    match a with | ⟨0, _⟩ => rfl | ⟨1, _⟩ => rfl)
  rw [el, er]

/-- The unmasked logit of query n against key m. -/
theorem v3_at (b : Fin 8) (n m : Fin 2048) :
    val_main_v3 (F := Ideal) x wq wk (ix3 b n m) = ∑ d : Fin 1024, proj x wq b n d * proj x wk b m d := by
  rw [val_main_v3_apply]
  refine Finset.sum_congr rfl fun d _ => ?_
  have el : lidx_main_v3 (ix3 b n m) d = ix3 b n d := funext fun a => Fin.ext (by
    match a with | ⟨0, _⟩ => rfl | ⟨1, _⟩ => rfl | ⟨2, _⟩ => rfl)
  have er : ridx_main_v3 (ix3 b n m) d = ix3 b m d := funext fun a => Fin.ext (by
    match a with | ⟨0, _⟩ => rfl | ⟨1, _⟩ => rfl | ⟨2, _⟩ => rfl)
  rw [el, er, v0_at, v1_at]

/-- The masked logit. -/
theorem v6_at (b : Fin 8) (n m : Fin 2048) : val_main_v6 (F := Ideal) x wq wk mask (ix3 b n m) = logit x wq wk mask b n m := by
  rw [val_main_v6_apply, val_main_v5_apply, val_main_v4_apply, val_main_c_apply, val_main_call0_v0_apply, val_main_cst_apply, v3_at]
  rfl

/-- The maximum of key m's column over the queries. -/
theorem v7_at (b : Fin 8) (m : Fin 2048) :
    val_main_v7 (F := Ideal) x wq wk mask (ix2 b m) = colMax fun n => logit x wq wk mask b n m := by
  unfold val_main_v7
  have hR : S8x2048x2048.Reduces [1] S8x2048 := by decide
  rw [Host.reduce_eq_fold_single (FloatOps.maximumf (F := Ideal) (φ := .f32)) _ _ reducesTo_S8x2048x2048_S8x2048_d1 hR h_S_ (ix2 b m)]
  have e : (fun n : Fin 2048 => val_main_v6 (F := Ideal) x wq wk mask (hR.lift (ix2 b m) n)) = fun n => logit x wq wk mask b n m :=
    funext fun n => (congrArg (val_main_v6 (F := Ideal) x wq wk mask) (funext fun a => Fin.ext (by
      match a with | ⟨0, _⟩ => rfl | ⟨1, _⟩ => rfl | ⟨2, _⟩ => rfl))).trans (v6_at x wq wk mask b n m)
  exact congrArg (fun f => (Finset.univ : Finset (Fin 2048)).fold max negInf f) e

theorem v9_at (b : Fin 8) (m : Fin 2048) :
    val_main_v9 (F := Ideal) x wq wk mask (ix2 b m) = colMax fun n => logit x wq wk mask b n m := by
  rw [val_main_v9_apply, val_main_v8_apply, val_main_cst_1_apply, v7_at]
  exact max_start_colMax _

theorem v11_at (b : Fin 8) (n m : Fin 2048) :
    val_main_v11 (F := Ideal) x wq wk mask (ix3 b n m) = colMax fun n' => logit x wq wk mask b n' m := by
  rw [val_main_v11_apply, val_main_v10_apply]
  have e : idx_main_v10 (idx_main_v11 (ix3 b n m)) = ix2 b m := funext fun a => Fin.ext (by
    match a with | ⟨0, _⟩ => rfl | ⟨1, _⟩ => rfl)
  rw [e, v9_at]

/-- The exponential of the logit shifted by its column's maximum. -/
theorem v13_at (b : Fin 8) (n m : Fin 2048) :
    val_main_v13 (F := Ideal) x wq wk mask (ix3 b n m)
      = Ideal.exp (logit x wq wk mask b n m - colMax fun n' => logit x wq wk mask b n' m) := by
  rw [val_main_v13_apply, val_main_v12_apply, v6_at, v11_at]
  rfl

/-- The column's sum of exponentials. -/
theorem v14_at (b : Fin 8) (m : Fin 2048) :
    val_main_v14 (F := Ideal) x wq wk mask (ix2 b m)
      = ∑ n : Fin 2048, Ideal.exp (logit x wq wk mask b n m - colMax fun n' => logit x wq wk mask b n' m) := by
  rw [val_main_v14_apply, val_main_cst_2_apply]
  show Ideal.ofBits .f32 0x00000000#32 + _ = _
  rw [Ideal.ofBits_zero_f32, zero_add]
  refine Finset.sum_congr rfl fun n _ => ?_
  have e : idx_main_v14 (ix2 b m) n = ix3 b n m := funext fun a => Fin.ext (by
    match a with | ⟨0, _⟩ => rfl | ⟨1, _⟩ => rfl | ⟨2, _⟩ => rfl)
  rw [e, v13_at]

theorem v16_at (b : Fin 8) (n m : Fin 2048) :
    val_main_v16 (F := Ideal) x wq wk mask (ix3 b n m)
      = ∑ n' : Fin 2048, Ideal.exp (logit x wq wk mask b n' m - colMax fun n'' => logit x wq wk mask b n'' m) := by
  rw [val_main_v16_apply, val_main_v15_apply]
  have e : idx_main_v15 (idx_main_v16 (ix3 b n m)) = ix2 b m := funext fun a => Fin.ext (by
    match a with | ⟨0, _⟩ => rfl | ⟨1, _⟩ => rfl)
  rw [e, v14_at]

/-- The weight of query n within key m's column. -/
theorem v17_at (b : Fin 8) (n m : Fin 2048) :
    val_main_v17 (F := Ideal) x wq wk mask (ix3 b n m) = weight (fun n' => logit x wq wk mask b n' m) n := by
  rw [val_main_v17_apply, v13_at, v16_at]
  rfl

/-- The reference's result array is the specification. -/
theorem ref_eq : val_main_v18 (F := Ideal) x wq wk wv mask = result x wq wk wv mask := by
  funext i
  obtain ⟨b, n, e, rfl⟩ : ∃ (b : Fin 8) (n : Fin 2048) (e : Fin 1024), i = ix3 b n e := ⟨i 0, i 1, i 2, eq_ix3 i⟩
  rw [val_main_v18_apply]
  show _ = ∑ m : Fin 2048, term x wq wk wv mask b n e m
  refine Finset.sum_congr rfl fun m _ => ?_
  have el : lidx_main_v18 (ix3 b n e) m = ix3 b n m := funext fun a => Fin.ext (by
    match a with | ⟨0, _⟩ => rfl | ⟨1, _⟩ => rfl | ⟨2, _⟩ => rfl)
  have er : ridx_main_v18 (ix3 b n e) m = ix3 b m e := funext fun a => Fin.ext (by
    match a with | ⟨0, _⟩ => rfl | ⟨1, _⟩ => rfl | ⟨2, _⟩ => rfl)
  rw [el, er, v17_at, v2_at]
  rfl

end Cert.ReferenceIdeal.RefValue

end
-- ==== Proof.KernelRun.lean ====
/-
  The idealized kernel's run with its result named: every weakly fair execution of the two launches terminates,
  nothing faulting, with the result buffer holding what the second launch's write-backs leave of it and the five
  argument buffers as launched.
-/
import proofs.«156849_j523986010551_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the launch over the two regions, the last thread state read against the final state; the result buffer
    at the contents the second region leaves, each argument walked back to the launch memory. -/
theorem run : θ_run defs (onTc (τ := τ) (main (F := F))) ⟨m, fun _ => 0, ρ⟩ (fun r => ∀ c : Dev nD,
      r.2.mem ((c.tc : Thread nD τ).loc main_v1) = W2 m ρ c (Proc.devRef .tc main_v1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h c =>
      ⟨h c _ (mem_uc main_v1 (by decide)),
       (h c _ (mem_uc main_arg0 (by decide))).trans (W2_main_arg0 m ρ c),
       (h c _ (mem_uc main_arg1 (by decide))).trans (W2_main_arg1 m ρ c),
       (h c _ (mem_uc main_arg2 (by decide))).trans (W2_main_arg2 m ρ c),
       (h c _ (mem_uc main_arg3 (by decide))).trans (W2_main_arg3 m ρ c),
       (h c _ (mem_uc main_arg4 (by decide))).trans (W2_main_arg4 m ρ c)⟩)

end Cert.KernelIdeal.RunValue

end
-- ==== Proof.LibPlainDot.lean ====
import Idealize.ShloMosaic.Lib.ValueIdx
import Idealize.ShloMosaic.PureOps.Ideal.Laws

/-!
# A rows-by-columns product read at an index

For dimension numbers that contract the left operand's second axis with the right operand's first and have no
batch axis, the product `[M, K] × [K, N] → [M, N]` at the index `(p, q)` is the plain sum
`∑ k < K, l (p, k) · r (k, q)` over the extended reals — for the matrix unit's product into a zero accumulator and
for the host's `dot_general` alike, whatever `M`, `K`, `N` are. Two programs that cut the rows differently (one whole
array against row tiles) therefore compute the same entries.
-/

noncomputable section

namespace Cert.LibPlainDot

open Idealize.ShloMosaic Idealize.ShloMosaic.ValueIdx
open scoped BigOperators

/-- The dimension numbers of a rows-by-columns product: the left operand's axis 1 against the right operand's
    axis 0, the remaining axes kept in order, no batch axis. -/
structure Plain {M K N : Nat} (d : DotDims ⟨2, ![M, K]⟩ ⟨2, ![K, N]⟩ ⟨2, ![M, N]⟩) : Prop where
  lc : d.lhsContracting = [1]
  rc : d.rhsContracting = [0]
  ln : d.lhsNonContracting = [0]
  rn : d.rhsNonContracting = [1]
  lb : d.lhsBatch = []
  rb : d.rhsBatch = []

section Literal

variable {M K N : Nat}
  (wf : DotDims.WF (⟨2, ![M, K]⟩ : Shape) (⟨2, ![K, N]⟩ : Shape) (⟨2, ![M, N]⟩ : Shape) [1] [0] [0] [1] [] [])

/-- The record with the lists spelt out. -/
abbrev lit : DotDims ⟨2, ![M, K]⟩ ⟨2, ![K, N]⟩ ⟨2, ![M, N]⟩ := ⟨[1], [0], [0], [1], [], [], wf⟩

/-- The left operand's row is the result's row. -/
theorem lit_lhs0 (j : (⟨2, ![M, N]⟩ : Shape).Idx) (k : (lit wf).contr.Idx) : ((lit wf).lhsIdx j k 0).val = (j 0).val := by
  unfold DotDims.lhsIdx
  rw [dif_neg (show ¬ (0 : Fin 2) ∈ (lit wf).lhsBatch from List.not_mem_nil),
    dif_pos (show (0 : Fin 2) ∈ (lit wf).lhsNonContracting from List.mem_singleton.mpr rfl)]
  rfl

/-- The right operand's column is the result's column. -/
theorem lit_rhs1 (j : (⟨2, ![M, N]⟩ : Shape).Idx) (k : (lit wf).contr.Idx) : ((lit wf).rhsIdx j k 1).val = (j 1).val := by
  unfold DotDims.rhsIdx
  rw [dif_neg (show ¬ (1 : Fin 2) ∈ (lit wf).rhsBatch from List.not_mem_nil),
    dif_pos (show (1 : Fin 2) ∈ (lit wf).rhsNonContracting from List.mem_singleton.mpr rfl)]
  rfl

theorem lit_sum (l : (⟨2, ![M, K]⟩ : Shape).Idx → EReal) (r : (⟨2, ![K, N]⟩ : Shape).Idx → EReal) (p : Fin M) (q : Fin N) :
    ∑ k : (lit wf).contr.Idx, l ((lit wf).lhsIdx (ix2 p q) k) * r ((lit wf).rhsIdx (ix2 p q) k)
      = ∑ k : Fin K, l (ix2 p k) * r (ix2 k q) := by
  rw [← Equiv.sum_comp (contrEquiv1 (lit wf) K rfl rfl).symm]
  refine Finset.sum_congr rfl fun k _ => ?_
  have hk := contrEquiv1_symm_val (lit wf) K rfl rfl k
  have el : (lit wf).lhsIdx (ix2 p q) ((contrEquiv1 (lit wf) K rfl rfl).symm k) = ix2 p k := funext fun a => Fin.ext (by
    match a with
    | ⟨0, _⟩ => exact lit_lhs0 wf _ _
    | ⟨1, _⟩ => exact ((lit wf).lhsIdx_val_of_single rfl _ _).trans hk)
  have er : (lit wf).rhsIdx (ix2 p q) ((contrEquiv1 (lit wf) K rfl rfl).symm k) = ix2 k q := funext fun a => Fin.ext (by
    match a with
    | ⟨0, _⟩ => exact ((lit wf).rhsIdx_val_of_single rfl _ _).trans hk
    | ⟨1, _⟩ => exact lit_rhs1 wf _ _)
  rw [el, er]

end Literal

/-- The sum over the contraction index of a rows-by-columns product is the sum over `k < K` of the left operand
    at `(p, k)` times the right operand at `(k, q)`. -/
theorem sum_contr {M K N : Nat} (d : DotDims ⟨2, ![M, K]⟩ ⟨2, ![K, N]⟩ ⟨2, ![M, N]⟩) (h : Plain d)
    (l : (⟨2, ![M, K]⟩ : Shape).Idx → EReal) (r : (⟨2, ![K, N]⟩ : Shape).Idx → EReal) (p : Fin M) (q : Fin N) :
    ∑ k : d.contr.Idx, l (d.lhsIdx (ix2 p q) k) * r (d.rhsIdx (ix2 p q) k) = ∑ k : Fin K, l (ix2 p k) * r (ix2 k q) := by
  obtain ⟨lc, rc, ln, rn, lb, rb, wf⟩ := d
  obtain ⟨h1, h2, h3, h4, h5, h6⟩ := h
  dsimp only at h1 h2 h3 h4 h5 h6
  subst h1 h2 h3 h4 h5 h6
  exact lit_sum wf l r p q

/-- The matrix unit's product into a zero accumulator, at an index: the plain sum. -/
theorem matmul_zero_apply {M K N : Nat} {φ₁ φ₂ : FTy} (d : DotDims ⟨2, ![M, K]⟩ ⟨2, ![K, N]⟩ ⟨2, ![M, N]⟩) (h : Plain d)
    (prec : Option ContractPrecision) (lhs : FVec Ideal ⟨2, ![M, K]⟩ φ₁) (rhs : FVec Ideal ⟨2, ![K, N]⟩ φ₂) (p : Fin M) (q : Fin N) :
    FloatOps.matmul d prec lhs rhs (constant ⟨2, ![M, N]⟩ .f32 0x00000000#32) (ix2 p q)
      = ∑ k : Fin K, lhs (ix2 p k) * rhs (ix2 k q) :=
  (Ideal.matmul_constant_zero_apply d prec lhs rhs (ix2 p q)).trans (sum_contr d h lhs rhs p q)

/-- The host's `dot_general` at an index: the same plain sum, whatever the schedule key. -/
theorem dotGeneral_apply {M K N : Nat} {φ₁ φ₂ : FTy} (d : DotDims ⟨2, ![M, K]⟩ ⟨2, ![K, N]⟩ ⟨2, ![M, N]⟩) (h : Plain d)
    (prec : Option ContractPrecision) (sched : HostSchedule) (lhs : FVec Ideal ⟨2, ![M, K]⟩ φ₁) (rhs : FVec Ideal ⟨2, ![K, N]⟩ φ₂)
    (p : Fin M) (q : Fin N) :
    FloatOps.dotGeneral d prec sched lhs rhs (ix2 p q) = ∑ k : Fin K, lhs (ix2 p k) * rhs (ix2 k q) :=
  (Ideal.dotGeneral_apply d prec sched lhs rhs (ix2 p q)).trans (sum_contr d h lhs rhs p q)

end Cert.LibPlainDot

end
-- ==== Proof.LibDotRows.lean ====
import Idealize.ShloMosaic.Lib.ValueIdx
import Idealize.ShloMosaic.PureOps.Ideal.Laws

/-!
# A product of rows with rows, read at an index

For dimension numbers that contract the second axis of BOTH operands and have no batch axis, the product
`[M, K] × [N, K] → [M, N]` (an einsum `mk,nk->mn`: the right operand is used transposed without being
transposed) at the index `(p, q)` is the plain sum `∑ k < K, l (p, k) · r (q, k)` over the extended reals —
for the matrix unit's product into a zero accumulator and for the host's `dot_general` alike, whatever
`M`, `K`, `N` are. Entry `(p, q)` depends on row `p` of the left operand and row `q` of the right one only,
so a program that cuts the left operand into row tiles computes the same entries as one that does not.
-/

noncomputable section

namespace Cert.LibDotRows

open Idealize.ShloMosaic Idealize.ShloMosaic.ValueIdx
open scoped BigOperators

/-- The dimension numbers of a rows-with-rows product: axis 1 of the left operand against axis 1 of the right
    operand, axis 0 of each kept (the left one first), no batch axis. -/
structure RowsRows {M K N : Nat} (d : DotDims ⟨2, ![M, K]⟩ ⟨2, ![N, K]⟩ ⟨2, ![M, N]⟩) : Prop where
  lc : d.lhsContracting = [1]
  rc : d.rhsContracting = [1]
  ln : d.lhsNonContracting = [0]
  rn : d.rhsNonContracting = [0]
  lb : d.lhsBatch = []
  rb : d.rhsBatch = []

section Spelt

variable {M K N : Nat}
  (wf : DotDims.WF (⟨2, ![M, K]⟩ : Shape) (⟨2, ![N, K]⟩ : Shape) (⟨2, ![M, N]⟩ : Shape) [1] [1] [0] [0] [] [])

/-- The record with its six lists written out. -/
abbrev spelt : DotDims ⟨2, ![M, K]⟩ ⟨2, ![N, K]⟩ ⟨2, ![M, N]⟩ := ⟨[1], [1], [0], [0], [], [], wf⟩

/-- The left operand is read in the result's row. -/
theorem spelt_lhs_row (j : (⟨2, ![M, N]⟩ : Shape).Idx) (k : (spelt wf).contr.Idx) :
    ((spelt wf).lhsIdx j k 0).val = (j 0).val := by
  unfold DotDims.lhsIdx
  rw [dif_neg (show ¬ (0 : Fin 2) ∈ (spelt wf).lhsBatch from List.not_mem_nil),
    dif_pos (show (0 : Fin 2) ∈ (spelt wf).lhsNonContracting from List.mem_singleton.mpr rfl)]
  rfl

/-- The right operand is read in the ROW numbered by the result's column. -/
theorem spelt_rhs_row (j : (⟨2, ![M, N]⟩ : Shape).Idx) (k : (spelt wf).contr.Idx) :
    ((spelt wf).rhsIdx j k 0).val = (j 1).val := by
  unfold DotDims.rhsIdx
  rw [dif_neg (show ¬ (0 : Fin 2) ∈ (spelt wf).rhsBatch from List.not_mem_nil),
    dif_pos (show (0 : Fin 2) ∈ (spelt wf).rhsNonContracting from List.mem_singleton.mpr rfl)]
  rfl

/-- The contraction's sum, re-indexed by the one contracted coordinate. -/
theorem spelt_sum (l : (⟨2, ![M, K]⟩ : Shape).Idx → EReal) (r : (⟨2, ![N, K]⟩ : Shape).Idx → EReal) (p : Fin M) (q : Fin N) :
    ∑ k : (spelt wf).contr.Idx, l ((spelt wf).lhsIdx (ix2 p q) k) * r ((spelt wf).rhsIdx (ix2 p q) k)
      = ∑ k : Fin K, l (ix2 p k) * r (ix2 q k) := by
  rw [← Equiv.sum_comp (contrEquiv1 (spelt wf) K rfl rfl).symm]
  refine Finset.sum_congr rfl fun k _ => ?_
  have hk := contrEquiv1_symm_val (spelt wf) K rfl rfl k
  have el : (spelt wf).lhsIdx (ix2 p q) ((contrEquiv1 (spelt wf) K rfl rfl).symm k) = ix2 p k :=
    funext fun a => Fin.ext (by
      match a with
      | ⟨0, _⟩ => exact spelt_lhs_row wf _ _
      | ⟨1, _⟩ => exact ((spelt wf).lhsIdx_val_of_single rfl _ _).trans hk)
  have er : (spelt wf).rhsIdx (ix2 p q) ((contrEquiv1 (spelt wf) K rfl rfl).symm k) = ix2 q k :=
    funext fun a => Fin.ext (by
      match a with
      | ⟨0, _⟩ => exact spelt_rhs_row wf _ _
      | ⟨1, _⟩ => exact ((spelt wf).rhsIdx_val_of_single rfl _ _).trans hk)
  rw [el, er]

end Spelt

/-- The sum over the contraction index of a rows-with-rows product is the sum over `k < K` of the left operand at
    `(p, k)` times the right operand at `(q, k)`. -/
theorem sum_contr {M K N : Nat} (d : DotDims ⟨2, ![M, K]⟩ ⟨2, ![N, K]⟩ ⟨2, ![M, N]⟩) (h : RowsRows d)
    (l : (⟨2, ![M, K]⟩ : Shape).Idx → EReal) (r : (⟨2, ![N, K]⟩ : Shape).Idx → EReal) (p : Fin M) (q : Fin N) :
    ∑ k : d.contr.Idx, l (d.lhsIdx (ix2 p q) k) * r (d.rhsIdx (ix2 p q) k) = ∑ k : Fin K, l (ix2 p k) * r (ix2 q k) := by
  obtain ⟨lc, rc, ln, rn, lb, rb, wf⟩ := d
  obtain ⟨h1, h2, h3, h4, h5, h6⟩ := h
  dsimp only at h1 h2 h3 h4 h5 h6
  subst h1 h2 h3 h4 h5 h6
  exact spelt_sum wf l r p q

/-- The matrix unit's product into a zero accumulator, at an index: the plain sum over the shared second axis. -/
theorem matmul_zero_apply {M K N : Nat} {φ₁ φ₂ : FTy} (d : DotDims ⟨2, ![M, K]⟩ ⟨2, ![N, K]⟩ ⟨2, ![M, N]⟩) (h : RowsRows d)
    (prec : Option ContractPrecision) (lhs : FVec Ideal ⟨2, ![M, K]⟩ φ₁) (rhs : FVec Ideal ⟨2, ![N, K]⟩ φ₂) (p : Fin M) (q : Fin N) :
    FloatOps.matmul d prec lhs rhs (constant ⟨2, ![M, N]⟩ .f32 0x00000000#32) (ix2 p q)
      = ∑ k : Fin K, lhs (ix2 p k) * rhs (ix2 q k) :=
  (Ideal.matmul_constant_zero_apply d prec lhs rhs (ix2 p q)).trans (sum_contr d h lhs rhs p q)

/-- The host's `dot_general` at an index: the same sum, whatever the schedule key. -/
theorem dotGeneral_apply {M K N : Nat} {φ₁ φ₂ : FTy} (d : DotDims ⟨2, ![M, K]⟩ ⟨2, ![N, K]⟩ ⟨2, ![M, N]⟩) (h : RowsRows d)
    (prec : Option ContractPrecision) (sched : HostSchedule) (lhs : FVec Ideal ⟨2, ![M, K]⟩ φ₁) (rhs : FVec Ideal ⟨2, ![N, K]⟩ φ₂)
    (p : Fin M) (q : Fin N) :
    FloatOps.dotGeneral d prec sched lhs rhs (ix2 p q) = ∑ k : Fin K, lhs (ix2 p k) * rhs (ix2 q k) :=
  (Ideal.dotGeneral_apply d prec sched lhs rhs (ix2 p q)).trans (sum_contr d h lhs rhs p q)

end Cert.LibDotRows

end
-- ==== Proof.LibTileLayout.lean ====
import Idealize.ShloMosaic.Lib.ValueLayout
import Idealize.ShloMosaic.PureOps.Ideal.Laws

/-!
# Columns, one-entry blocks and sums along one axis, read at an index

A tile's loss is first summed along each row, the row sums are stood up as a column, and the column is summed into
one number, which is then spread over a small block. Each of these steps moves numbers without changing them, or adds
them up along one axis. Here each step is read at an index written by its coordinates:

* a column `[a, 1]` spread over `[a, b]` has, at `(p, c)`, the column's entry `p`;
* a one-entry block `[1, 1]` spread over `[a, b]` has that entry everywhere;
* a vector `[a]` stood up as a column `[a, 1]` has, at `(i, 0)`, the vector's entry `i`;
* the sum of an `[a, b]` array along axis 1, started from zero, is at `p` the sum over `q < b` of the entry `(p, q)`,
  and along axis 0 it is at `c` the sum over `p < a` of the entry `(p, c)`.
-/

namespace Cert.TileLayout

open Idealize.ShloMosaic Idealize.ShloMosaic.ValueIdx
open scoped BigOperators

variable {α : Type}

/-- A column `[a, 1]` broadcast to `[a, b]` reads, at `(p, c)`, the column's entry `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A one-entry block `[1, 1]` broadcast to `[a, b]` reads that one entry everywhere. -/
theorem broadcastTo_11_ab_apply {a b : ℕ} (v : (⟨2, ![1, 1]⟩ : Shape).Idx → α)
    (h : (⟨2, ![1, 1]⟩ : Shape).Broadcasts ⟨2, ![a, b]⟩) (p : Fin a) (c : Fin b) :
    broadcastTo ⟨2, ![a, b]⟩ v h (ix2 p c) = v (ix2 (0 : Fin 1) (0 : Fin 1)) := by
  refine broadcastTo_apply v h (ix2 p c) (ix2 (0 : Fin 1) (0 : Fin 1)) fun ax => ?_
  match ax with
  | ⟨0, _⟩ => rfl
  | ⟨1, _⟩ => rfl

/-- A vector `[a]` cast to a column `[a, 1]` reads, at `(i, u)`, the vector's entry `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The sum of an `[a, b]` array along axis 1, started from zero, is at `p` the sum over the row `p`. -/
theorem sum_axis1_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ src acc h hφ hacc (ix1 p) = ∑ q : Fin b, src (ix2 p q) := by
  refine (Ideal.multiReduction_add_single src acc h hφ hacc (ix1 p)).trans ?_
  show ∑ q : Fin b, src (h.lift (ix1 p) q) = _
  refine Finset.sum_congr rfl fun q _ => congrArg src ?_
  funext c
  refine Fin.ext ?_
  match c with
  | ⟨0, _⟩ => rfl
  | ⟨1, _⟩ => rfl

/-- The sum of an `[a, b]` array along axis 0, started from zero, is at `c` the sum over the column `c`. -/
theorem sum_axis0_apply {a b : ℕ} {φ : FTy} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ)
    (c : Fin b) :
    multiReduction .add [0] ⟨1, ![b]⟩ src acc h hφ hacc (ix1 c) = ∑ p : Fin a, src (ix2 p c) := by
  refine (Ideal.multiReduction_add_single src acc h hφ hacc (ix1 c)).trans ?_
  show ∑ p : Fin a, src (h.lift (ix1 c) p) = _
  refine Finset.sum_congr rfl fun p _ => congrArg src ?_
  funext d
  refine Fin.ext ?_
  match d with
  | ⟨0, _⟩ => rfl
  | ⟨1, _⟩ => rfl

end Cert.TileLayout
-- ==== Proof.LibColumnMax.lean ====
/-
  The maximum of a two-dimensional array taken down its columns, read at one column.
-/
import Idealize.ShloMosaic.Lib.ValueIdx
import Idealize.ShloMosaic.PureOps.Ideal.Laws

noncomputable section

namespace Cert.LibColumnMax

open Idealize.ShloMosaic Idealize.ShloMosaic.ValueIdx

/-- A float maximum reduction of an [a, b] array along axis 0, at the ideal values, is at column c the fold of max,
    from the accumulator's value, over the a entries (p, c) of that column. Any a, b and float format. -/
theorem max_axis0_apply {a b : ℕ} {φ : FTy} (src : FVec Ideal ⟨2, ![a, b]⟩ φ) (acc : BitVec φ.bits)
    (h : (⟨2, ![a, b]⟩ : Shape).Reduces [0] ⟨1, ![b]⟩) (hφ : FKind.Formats φ) (hacc : acc = FKind.maximumf.neutral φ hφ)
    (c : Fin b) :
    multiReduction .maximumf [0] ⟨1, ![b]⟩ src acc h hφ hacc (ix1 c)
      = (Finset.univ : Finset (Fin a)).fold max (Ideal.ofBits φ acc) (fun p => src (ix2 p c)) := by
  refine (Ideal.multiReduction_maximumf_single src acc h hφ hacc (ix1 c)).trans ?_
  have e : (fun p : Fin a => src (h.lift (ix1 c) p)) = fun p => src (ix2 p c) :=
    funext fun p => congrArg src (funext fun d => Fin.ext (by
      match d with
      | ⟨0, _⟩ => rfl
      | ⟨1, _⟩ => rfl))
  exact congrArg (fun f => (Finset.univ : Finset (Fin a)).fold max (Ideal.ofBits φ acc) f) e

end Cert.LibColumnMax

end
-- ==== Proof.Pay.lean ====
/-
  What the two kernel bodies compute, read at one index of the stored block.

  The projection body stores, at row r and feature e of its block, the sum over k of the x block at (r, k) times
  the weight matrix at (k, e) (a rounding to a narrower float format is the identity on the extended reals).

  The attention body, for one batch and one block of 256 keys, forms the logits of all 2048 queries against the
  block's keys, masks them, normalises each key's COLUMN over the queries (maximum, shift, exponential, sum,
  quotient), multiplies by the block's rows of v and adds the product to what its output block held.
-/
import proofs.«156849_j523986010551_2_alg».proof.Proof.Gen.KernelIdeal.Skeleton
import proofs.«156849_j523986010551_2_alg».proof.Proof.Spec
import proofs.«156849_j523986010551_2_alg».proof.Proof.LibPlainDot
import proofs.«156849_j523986010551_2_alg».proof.Proof.LibDotRows
import proofs.«156849_j523986010551_2_alg».proof.Proof.LibTileLayout
import proofs.«156849_j523986010551_2_alg».proof.Proof.LibColumnMax
import Idealize.ShloMosaic.Lib.ValueLayout
import Idealize.ShloMosaic.Lib.Pipeline.Value

noncomputable section

namespace Cert.KernelIdeal.PayValue

open Cert.KernelIdeal Cert.KernelIdeal.Gen Idealize.ShloMosaic Idealize.ShloMosaic.ValueIdx Cert.Attn
open scoped BigOperators

/-- The projections' product has plain dimension numbers: rows by columns. -/
theorem plain_proj : Cert.LibPlainDot.Plain dot_S512x1024_S1024x1024_S512x1024_1_0_0_1_n_n := ⟨rfl, rfl, rfl, rfl, rfl, rfl⟩
/-- So has the product of the weights with the rows of v. -/
theorem plain_av : Cert.LibPlainDot.Plain dot_S2048x256_S256x1024_S2048x1024_1_0_0_1_n_n := ⟨rfl, rfl, rfl, rfl, rfl, rfl⟩
/-- The logits contract the feature axis of both operands: rows with rows. -/
theorem rows_qk : Cert.LibDotRows.RowsRows dot_S2048x1024_S256x1024_S2048x256_1_1_0_0_n_n := ⟨rfl, rfl, rfl, rfl, rfl, rfl⟩

/-! ## The projection body -/

/-- The product of the x block with a weight matrix into a zero accumulator, recast to the block's shape. -/
theorem proj_block (x0 : Vec Ideal S1x512x1024 .f32) (w : Vec Ideal S1024x1024 .f32) (r : Fin 512) (e : Fin 1024) :
    shapeCast S1x512x1024
        (matmul dot_S512x1024_S1024x1024_S512x1024_1_0_0_1_n_n none (k0_pay1 x0) (truncf .bf16 w bitsLt_bf16_f32)
          (constant S512x1024 .f32 0x00000000#32)) shapeCasts_S512x1024_S1x512x1024 (ix3 (0 : Fin 1) r e)
      = ∑ k : Fin 1024, x0 (ix3 (0 : Fin 1) r k) * w (ix2 k e) := by
  refine (shapeCast_ab_1ab_apply _ _ (0 : Fin 1) r e).trans ?_
  refine (Cert.LibPlainDot.matmul_zero_apply _ plain_proj none _ _ r e).trans ?_
  refine Finset.sum_congr rfl fun k _ => ?_
  show k0_pay1 x0 (ix2 r k) * w (ix2 k e) = _
  refine congrArg (· * w (ix2 k e)) ?_
  unfold k0_pay1
  exact shapeCast_1ab_ab_apply x0 _ r k

theorem pay_q (x0 : Vec Ideal S1x512x1024 .f32) (w : Vec Ideal S1024x1024 .f32) (r : Fin 512) (e : Fin 1024) :
    k0_pay2 x0 w (ix3 (0 : Fin 1) r e) = ∑ k : Fin 1024, x0 (ix3 (0 : Fin 1) r k) * w (ix2 k e) :=
  proj_block x0 w r e

theorem pay_k (x0 : Vec Ideal S1x512x1024 .f32) (w : Vec Ideal S1024x1024 .f32) (r : Fin 512) (e : Fin 1024) :
    k0_pay3 x0 w (ix3 (0 : Fin 1) r e) = ∑ k : Fin 1024, x0 (ix3 (0 : Fin 1) r k) * w (ix2 k e) :=
  proj_block x0 w r e

theorem pay_v (x0 : Vec Ideal S1x512x1024 .f32) (w : Vec Ideal S1024x1024 .f32) (r : Fin 512) (e : Fin 1024) :
    k0_pay4 x0 w (ix3 (0 : Fin 1) r e) = ∑ k : Fin 1024, x0 (ix3 (0 : Fin 1) r k) * w (ix2 k e) := by
  unfold k0_pay4
  refine (shapeCast_ab_1ab_apply _ _ (0 : Fin 1) r e).trans ?_
  show matmul dot_S512x1024_S1024x1024_S512x1024_1_0_0_1_n_n none (k0_pay1 x0) (truncf .bf16 w bitsLt_bf16_f32)
      (constant S512x1024 .f32 0x00000000#32) (ix2 r e) = _
  refine (Cert.LibPlainDot.matmul_zero_apply _ plain_proj none _ _ r e).trans ?_
  refine Finset.sum_congr rfl fun k _ => ?_
  show k0_pay1 x0 (ix2 r k) * w (ix2 k e) = _
  refine congrArg (· * w (ix2 k e)) ?_
  unfold k0_pay1
  exact shapeCast_1ab_ab_apply x0 _ r k

/-! ## The attention body -/

/-- The block a reset stores holds zero everywhere. -/
theorem pay_zero (n : Fin 2048) (e : Fin 1024) : k1_pay2 (F := Ideal) (ix3 (0 : Fin 1) n e) = 0 := by
  unfold k1_pay2
  refine (shapeCast_ab_1ab_apply _ _ (0 : Fin 1) n e).trans ?_
  exact Ideal.ofBits_zero_f32

section Column

variable (S : FVec Ideal S2048x256 .f32)

/-- The masked logits' column maxima, stood up as a row and spread over the queries: at (n, j) the maximum of column j. -/
theorem colmax_at (n : Fin 2048) (j : Fin 256) :
    broadcastTo S2048x256 (shapeCast S1x256 (multiReduction .maximumf [0] S256 S 0xFF800000#32 reduces_S2048x256_S256 (.inl rfl) rfl)
      shapeCasts_S256_S1x256) broadcasts_S1x256_S2048x256 (ix2 n j) = colMax fun n' => S (ix2 n' j) := by
  refine (broadcastTo_1b_ab_apply _ _ n j).trans ?_
  refine (shapeCast_a_1a_apply _ _ (0 : Fin 1) j).trans ?_
  exact Cert.LibColumnMax.max_axis0_apply S _ _ _ _ j

/-- The exponentials of the logits shifted by their column's maximum. -/
def shifted : FVec Ideal S2048x256 .f32 :=
  exp (subf S (broadcastTo S2048x256 (shapeCast S1x256 (multiReduction .maximumf [0] S256 S 0xFF800000#32 reduces_S2048x256_S256 (.inl rfl) rfl)
      shapeCasts_S256_S1x256) broadcasts_S1x256_S2048x256))

theorem shifted_at (n : Fin 2048) (j : Fin 256) :
    shifted S (ix2 n j) = Ideal.exp (S (ix2 n j) - colMax fun n' => S (ix2 n' j)) := by
  show Ideal.exp (S (ix2 n j) - _) = _
  rw [colmax_at S n j]

/-- Their column sums, stood up as a row and spread over the queries: at (n, j) the sum of column j. -/
theorem colsum_at (n : Fin 2048) (j : Fin 256) :
    broadcastTo S2048x256 (shapeCast S1x256 (multiReduction .add [0] S256 (shifted S) 0x00000000#32 reduces_S2048x256_S256 (.inl rfl) rfl)
      shapeCasts_S256_S1x256) broadcasts_S1x256_S2048x256 (ix2 n j)
      = ∑ n' : Fin 2048, Ideal.exp (S (ix2 n' j) - colMax fun n'' => S (ix2 n'' j)) := by
  refine (broadcastTo_1b_ab_apply _ _ n j).trans ?_
  refine (shapeCast_a_1a_apply _ _ (0 : Fin 1) j).trans ?_
  refine (Cert.TileLayout.sum_axis0_apply (shifted S) _ _ _ _ j).trans ?_
  exact Finset.sum_congr rfl fun n' _ => shifted_at S n' j

/-- The quotient: at (n, j) the weight of query n within column j. -/
theorem weight_at (n : Fin 2048) (j : Fin 256) :
    divf (shifted S) (broadcastTo S2048x256 (shapeCast S1x256 (multiReduction .add [0] S256 (shifted S) 0x00000000#32 reduces_S2048x256_S256 (.inl rfl) rfl)
      shapeCasts_S256_S1x256) broadcasts_S1x256_S2048x256) (ix2 n j) = weight (fun n' => S (ix2 n' j)) n := by
  show Ideal.div (shifted S (ix2 n j)) _ = _
  rw [shifted_at S n j, colsum_at S n j]
  rfl

end Column

/-- The masked logits of the block. -/
def logits (q : Vec Ideal S1x2048x1024 .f32) (k : Vec Ideal S1x256x1024 .f32) (mk : Vec Ideal S1x2048x256 .i32) : FVec Ideal S2048x256 .f32 :=
  select (cmpi .eq (shapeCast S2048x256 mk shapeCasts_S1x2048x256_S2048x256 : IVec S2048x256 32) (broadcast S2048x256 0#32))
    (broadcast S2048x256 (Scalar.ofBits .f32 0xD368D4A5#32 : Ideal .f32))
    (matmul dot_S2048x1024_S256x1024_S2048x256_1_1_0_0_n_n (some .fp32)
      (shapeCast S2048x1024 q shapeCasts_S1x2048x1024_S2048x1024 : FVec Ideal S2048x1024 .f32)
      (shapeCast S256x1024 k shapeCasts_S1x256x1024_S256x1024 : FVec Ideal S256x1024 .f32) (constant S2048x256 .f32 0x00000000#32))

theorem logits_at (q : Vec Ideal S1x2048x1024 .f32) (k : Vec Ideal S1x256x1024 .f32) (mk : Vec Ideal S1x2048x256 .i32)
    (n : Fin 2048) (j : Fin 256) :
    logits q k mk (ix2 n j)
      = maskOr (mk (ix3 (0 : Fin 1) n j)) (∑ d : Fin 1024, q (ix3 (0 : Fin 1) n d) * k (ix3 (0 : Fin 1) j d)) := by
  show Scalar.select (IntOp.cmpi .eq ((shapeCast S2048x256 mk shapeCasts_S1x2048x256_S2048x256 : IVec S2048x256 32) (ix2 n j)) 0#32) _ _ = _
  rw [shapeCast_1ab_ab_apply mk _ n j]
  refine congrArg (Scalar.select (IntOp.cmpi .eq (mk (ix3 (0 : Fin 1) n j)) 0#32) negBig) ?_
  refine (Cert.LibDotRows.matmul_zero_apply _ rows_qk (some .fp32) _ _ n j).trans ?_
  refine Finset.sum_congr rfl fun d _ => ?_
  rw [shapeCast_1ab_ab_apply q _ n d, shapeCast_1ab_ab_apply k _ j d]

/-- The attention body at (0, n, e): what the output block held there plus, over the block's 256 keys, the weight of
    query n in the key's column times the key's row of v at e. -/
theorem pay_attn (q : Vec Ideal S1x2048x1024 .f32) (k : Vec Ideal S1x256x1024 .f32) (v : Vec Ideal S1x256x1024 .bf16)
    (mk : Vec Ideal S1x2048x256 .i32) (prev : Vec Ideal S1x2048x1024 .f32) (n : Fin 2048) (e : Fin 1024) :
    k1_pay1 (k1_pay3 q k v mk prev) (ix3 (0 : Fin 1) n e)
      = prev (ix3 (0 : Fin 1) n e) + ∑ j : Fin 256,
          weight (fun n' => maskOr (mk (ix3 (0 : Fin 1) n' j)) (∑ d : Fin 1024, q (ix3 (0 : Fin 1) n' d) * k (ix3 (0 : Fin 1) j d))) n
            * v (ix3 (0 : Fin 1) j e) := by
  unfold k1_pay1
  refine (shapeCast_ab_1ab_apply _ _ (0 : Fin 1) n e).trans ?_
  unfold k1_pay3
  show (shapeCast S2048x1024 prev shapeCasts_S1x2048x1024_S2048x1024 : FVec Ideal S2048x1024 .f32) (ix2 n e)
      + matmul dot_S2048x256_S256x1024_S2048x1024_1_0_0_1_n_n none
          (truncf .bf16 (divf (shifted (logits q k mk)) (broadcastTo S2048x256 (shapeCast S1x256
            (multiReduction .add [0] S256 (shifted (logits q k mk)) 0x00000000#32 reduces_S2048x256_S256 (.inl rfl) rfl)
            shapeCasts_S256_S1x256) broadcasts_S1x256_S2048x256)) bitsLt_bf16_f32)
          (shapeCast S256x1024 v shapeCasts_S1x256x1024_S256x1024 : FVec Ideal S256x1024 .bf16) (constant S2048x1024 .f32 0x00000000#32) (ix2 n e) = _
  refine congrArg₂ (· + ·) (shapeCast_1ab_ab_apply prev _ n e) ?_
  refine (Cert.LibPlainDot.matmul_zero_apply _ plain_av none _ _ n e).trans ?_
  refine Finset.sum_congr rfl fun j _ => ?_
  refine congrArg₂ (· * ·) ?_ (shapeCast_1ab_ab_apply v _ j e)
  refine (weight_at (logits q k mk) n j).trans ?_
  exact congrArg (fun s => weight s n) (funext fun n' => logits_at q k mk n' j)

end Cert.KernelIdeal.PayValue

end
-- ==== Proof.Region0.lean ====
/-
  The first launch: after it the three projection arrays hold, at (b, n, e), the sum over k of x (b, n, k) times the
  weight matrix at (k, e).

  The grid is 8 batches by 4 row blocks of 512. At point t the body reads the x block of batch and row block t and
  the three whole weight matrices, and stores for each projection the block's rows; every point writes its three
  blocks back, and the blocks tile the arrays.
-/
import proofs.«156849_j523986010551_2_alg».proof.Proof.Gen.KernelIdeal.Frame
import proofs.«156849_j523986010551_2_alg».proof.Proof.Pay
import Idealize.ShloMosaic.Lib.Pipeline.Value

set_option maxRecDepth 16384

noncomputable section

namespace Cert.KernelIdeal.Region0

open Cert.KernelIdeal Cert.KernelIdeal.Gen Cert.KernelIdeal.PayValue Cert.Attn
open Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

theorem hz3 : (![0, 0, 0] : Fin 3 → Nat) = fun _ => 0 := funext fun a => by fin_cases a <;> rfl
theorem hz2 : (![0, 0] : Fin 2 → Nat) = fun _ => 0 := funext fun a => by fin_cases a <;> rfl

/-- A projection as an array. -/
def projArr (x : SX.Idx → EReal) (w : SW.Idx → EReal) : SX.Idx → EReal := fun i => proj x w (i 0) (i 1) (i 2)

/-- The printed index maps, decided over the 32 points: the x window and the three output windows move together over
    batch and row block and stay at feature block 0; the weight windows stay at block (0, 0). -/
theorem idx_facts : ∀ t : Fin cfg0.N,
    win0_0.index t (0 : Fin 3) = win0_4.index t (0 : Fin 3) ∧ win0_0.index t (1 : Fin 3) = win0_4.index t (1 : Fin 3)
    ∧ win0_0.index t (2 : Fin 3) = 0 ∧ win0_4.index t (2 : Fin 3) = 0
    ∧ win0_5.index t (0 : Fin 3) = win0_4.index t (0 : Fin 3) ∧ win0_5.index t (1 : Fin 3) = win0_4.index t (1 : Fin 3) ∧ win0_5.index t (2 : Fin 3) = 0
    ∧ win0_6.index t (0 : Fin 3) = win0_4.index t (0 : Fin 3) ∧ win0_6.index t (1 : Fin 3) = win0_4.index t (1 : Fin 3) ∧ win0_6.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 3) = t.val / 4 ∧ win0_4.index t (1 : Fin 3) = t.val % 4 :=
  (by decide +kernel : ∀ t : Fin grid0.N, _)

/-- The x block at point t, read at row r and feature k, is x at the block's batch, the block's row, feature k. -/
theorem xblk_at (c : Dev nD) (t : Fin cfg0.N) (r : Fin 512) (k : Fin 1024) :
    iblk0 V c 0 t (ix3 (0 : Fin 1) r k)
      = V c main_arg0 (ix3 (⟨t.val / 4, by have := t.isLt; have : cfg0.N = 32 := N_0; omega⟩ : Fin 8)
          (⟨512 * (t.val % 4) + r.val, by have := r.isLt; omega⟩ : Fin 2048) k) := by
  obtain ⟨e0, e1, e2, e3, -, -, -, -, -, -, -, -, -, -, -, -, e16, e17⟩ := idx_facts t
  show V c main_arg0 (((cfg0.win 0).blk t).view.emb (ix3 (0 : Fin 1) r k)) = _
  refine congrArg (V c main_arg0) (funext fun a => Fin.ext ?_)
  match a with
  | ⟨0, _⟩ => show win0_0.index t (0 : Fin 3) * 1 + 1 * 0 = t.val / 4; omega
  | ⟨1, _⟩ => show win0_0.index t (1 : Fin 3) * 512 + 1 * r.val = 512 * (t.val % 4) + r.val; omega
  | ⟨2, _⟩ => show win0_0.index t (2 : Fin 3) * 1024 + 1 * k.val = k.val; omega

/-- A weight block is the whole weight matrix. -/
theorem wblk1_at (c : Dev nD) (t : Fin cfg0.N) (k e : Fin 1024) : iblk0 V c 1 t (ix2 k e) = V c main_arg1 (ix2 k e) := by
  obtain ⟨-, -, -, -, -, -, -, -, -, -, e10, e11, -, -, -, -, -, -⟩ := idx_facts t
  show V c main_arg1 (((cfg0.win 1).blk t).view.emb (ix2 k e)) = _
  refine congrArg (V c main_arg1) (funext fun a => Fin.ext ?_)
  match a with
  | ⟨0, _⟩ => show win0_1.index t (0 : Fin 2) * 1024 + 1 * k.val = k.val; omega
  | ⟨1, _⟩ => show win0_1.index t (1 : Fin 2) * 1024 + 1 * e.val = e.val; omega
theorem wblk2_at (c : Dev nD) (t : Fin cfg0.N) (k e : Fin 1024) : iblk0 V c 2 t (ix2 k e) = V c main_arg2 (ix2 k e) := by
  obtain ⟨-, -, -, -, -, -, -, -, -, -, -, -, e12, e13, -, -, -, -⟩ := idx_facts t
  show V c main_arg2 (((cfg0.win 2).blk t).view.emb (ix2 k e)) = _
  refine congrArg (V c main_arg2) (funext fun a => Fin.ext ?_)
  match a with
  | ⟨0, _⟩ => show win0_2.index t (0 : Fin 2) * 1024 + 1 * k.val = k.val; omega
  | ⟨1, _⟩ => show win0_2.index t (1 : Fin 2) * 1024 + 1 * e.val = e.val; omega
theorem wblk3_at (c : Dev nD) (t : Fin cfg0.N) (k e : Fin 1024) : iblk0 V c 3 t (ix2 k e) = V c main_arg3 (ix2 k e) := by
  obtain ⟨-, -, -, -, -, -, -, -, -, -, -, -, -, -, e14, e15, -, -⟩ := idx_facts t
  show V c main_arg3 (((cfg0.win 3).blk t).view.emb (ix2 k e)) = _
  refine congrArg (V c main_arg3) (funext fun a => Fin.ext ?_)
  match a with
  | ⟨0, _⟩ => show win0_3.index t (0 : Fin 2) * 1024 + 1 * k.val = k.val; omega
  | ⟨1, _⟩ => show win0_3.index t (1 : Fin 2) * 1024 + 1 * e.val = e.val; omega

/-- The sum a projection payload leaves at (r, e) of point t's block is the projection array at the block's place:
    stated over the loaded blocks as variables, the block reads as hypotheses. -/
theorem block_sum (c : Dev nD) (t : Fin cfg0.N) (w : SW.Idx → EReal) (xb : Vec Ideal S1x512x1024 .f32) (wb : Vec Ideal S1024x1024 .f32)
    (hx : ∀ (r : Fin 512) (k : Fin 1024), xb (ix3 (0 : Fin 1) r k)
      = V c main_arg0 (ix3 (⟨t.val / 4, by have := t.isLt; have : cfg0.N = 32 := N_0; omega⟩ : Fin 8)
          (⟨512 * (t.val % 4) + r.val, by have := r.isLt; omega⟩ : Fin 2048) k))
    (hw : ∀ k e : Fin 1024, wb (ix2 k e) = w (ix2 k e)) (r : Fin 512) (e : Fin 1024) :
    ∑ k : Fin 1024, xb (ix3 (0 : Fin 1) r k) * wb (ix2 k e)
      = projArr (V c main_arg0) w (ix3 (⟨t.val / 4, by have := t.isLt; have : cfg0.N = 32 := N_0; omega⟩ : Fin 8)
          (⟨512 * (t.val % 4) + r.val, by have := r.isLt; omega⟩ : Fin 2048) e) := by
  unfold projArr proj
  exact Finset.sum_congr rfl fun k _ => by rw [hx r k, hw k e]

/-- An index of projection array 1 lies in point t's block iff each coordinate lies in the block's range. -/
theorem mem_blk4 (t : Fin cfg0.N) (i : S8x2048x1024.Idx) :
    i ∈ ((cfg0.win 4).blk t).view.set ↔ ∀ a : Fin 3, win0_4.index t a * S1x512x1024.size a ≤ (i a).val
      ∧ (i a).val < win0_4.index t a * S1x512x1024.size a + S1x512x1024.size a := by
  show i ∈ ((View.whole main_v0_0).slice (win0_4.rect t)).set ↔ _
  rw [View.set_slice_whole, Rect.mem_set_unit]
  exact Iff.rfl

/-- What point t writes back of projection 1 is block t of the projection array. -/
theorem flushed4 (c : Dev nD) (t : Fin cfg0.N) :
    (dat0 V c).flushed 4 t = ((cfg0.win 4).blk t).view.read (Elt Ideal) (projArr (V c main_arg0) (V c main_arg1)) := by
  show (cfg0.win 4).cut (grid0.coords t) ((dat0 V c).after 4 t) = _
  rw [after0_4]
  unfold out0_4
  rw [View.canon_unit_zero hz3]
  simp only [View.ld_unit_zero (S := S1x512x1024) hz3, View.ld_unit_zero (S := S1024x1024) hz2]
  funext y
  obtain ⟨u, r, e, rfl⟩ : ∃ (u : Fin 1) (r : Fin 512) (e : Fin 1024), y = ix3 u r e := ⟨y 0, y 1, y 2, eq_ix3 y⟩
  obtain rfl : u = 0 := Subsingleton.elim _ _
  show k0_pay2 (iblk0 V c 0 t) (iblk0 V c 1 t) (ix3 (0 : Fin 1) r e)
    = projArr (V c main_arg0) (V c main_arg1) (((cfg0.win 4).blk t).view.emb (ix3 (0 : Fin 1) r e))
  refine (pay_q (iblk0 V c 0 t) (iblk0 V c 1 t) r e).trans ?_
  refine (block_sum V c t (V c main_arg1) (iblk0 V c 0 t) (iblk0 V c 1 t) (xblk_at V c t) (wblk1_at V c t) r e).trans ?_
  refine congrArg (projArr (V c main_arg0) (V c main_arg1)) (funext fun a => Fin.ext ?_)
  obtain ⟨-, -, -, e3, e4, e5, e6, e7, e8, e9, -, -, -, -, -, -, e16, e17⟩ := idx_facts t
  match a with
  | ⟨0, _⟩ => show t.val / 4 = win0_4.index t (0 : Fin 3) * 1 + 1 * 0; omega
  | ⟨1, _⟩ => show 512 * (t.val % 4) + r.val = win0_4.index t (1 : Fin 3) * 512 + 1 * r.val; omega
  | ⟨2, _⟩ => show e.val = win0_4.index t (2 : Fin 3) * 1024 + 1 * e.val; omega

/-- Every index of the array is in the block of the point of its batch and row block. -/
theorem cover4 (i : S8x2048x1024.Idx) :
    ∃ t : Fin cfg0.N, (cfg0.win 4).flush t = true ∧ i ∈ ((cfg0.win 4).blk t).view.set := by
  have h0 : (i 0).val < 8 := (i 0).isLt
  have h1 : (i 1).val < 2048 := (i 1).isLt
  have h2 : (i 2).val < 1024 := (i 2).isLt
  have hN : cfg0.N = 32 := N_0
  refine ⟨⟨4 * (i 0).val + (i 1).val / 512, by omega⟩, flush0_4 _, ?_⟩
  rw [mem_blk4]
  obtain ⟨-, -, -, e3, e4, e5, e6, e7, e8, e9, -, -, -, -, -, -, e16, e17⟩ :=
    idx_facts (⟨4 * (i 0).val + (i 1).val / 512, by omega⟩ : Fin cfg0.N)
  dsimp only at e16 e17
  intro a
  match a with
  | ⟨0, _⟩ =>
    show win0_4.index _ (0 : Fin 3) * 1 ≤ (i 0).val ∧ (i 0).val < win0_4.index _ (0 : Fin 3) * 1 + 1
    omega
  | ⟨1, _⟩ =>
    show win0_4.index _ (1 : Fin 3) * 512 ≤ (i 1).val ∧ (i 1).val < win0_4.index _ (1 : Fin 3) * 512 + 512
    omega
  | ⟨2, _⟩ =>
    show win0_4.index _ (2 : Fin 3) * 1024 ≤ (i 2).val ∧ (i 2).val < win0_4.index _ (2 : Fin 3) * 1024 + 1024
    omega

/-- After the launch projection array 1 is the projection of x by its weight matrix. -/
theorem final4 (c : Dev nD) : (dat0 V c).arrAt 4 cfg0.N = projArr (V c main_arg0) (V c main_arg1) :=
  (dat0 V c).arrAt_eq_of_cover 4 (projArr (V c main_arg0) (V c main_arg1)) (fun t _ => flushed4 V c t) cover4

/-- An index of projection array 2 lies in point t's block iff each coordinate lies in the block's range. -/
theorem mem_blk5 (t : Fin cfg0.N) (i : S8x2048x1024.Idx) :
    i ∈ ((cfg0.win 5).blk t).view.set ↔ ∀ a : Fin 3, win0_5.index t a * S1x512x1024.size a ≤ (i a).val
      ∧ (i a).val < win0_5.index t a * S1x512x1024.size a + S1x512x1024.size a := by
  show i ∈ ((View.whole main_v0_1).slice (win0_5.rect t)).set ↔ _
  rw [View.set_slice_whole, Rect.mem_set_unit]
  exact Iff.rfl

/-- What point t writes back of projection 2 is block t of the projection array. -/
theorem flushed5 (c : Dev nD) (t : Fin cfg0.N) :
    (dat0 V c).flushed 5 t = ((cfg0.win 5).blk t).view.read (Elt Ideal) (projArr (V c main_arg0) (V c main_arg2)) := by
  show (cfg0.win 5).cut (grid0.coords t) ((dat0 V c).after 5 t) = _
  rw [after0_5]
  unfold out0_5
  rw [View.canon_unit_zero hz3]
  simp only [View.ld_unit_zero (S := S1x512x1024) hz3, View.ld_unit_zero (S := S1024x1024) hz2]
  funext y
  obtain ⟨u, r, e, rfl⟩ : ∃ (u : Fin 1) (r : Fin 512) (e : Fin 1024), y = ix3 u r e := ⟨y 0, y 1, y 2, eq_ix3 y⟩
  obtain rfl : u = 0 := Subsingleton.elim _ _
  show k0_pay3 (iblk0 V c 0 t) (iblk0 V c 2 t) (ix3 (0 : Fin 1) r e)
    = projArr (V c main_arg0) (V c main_arg2) (((cfg0.win 5).blk t).view.emb (ix3 (0 : Fin 1) r e))
  refine (pay_k (iblk0 V c 0 t) (iblk0 V c 2 t) r e).trans ?_
  refine (block_sum V c t (V c main_arg2) (iblk0 V c 0 t) (iblk0 V c 2 t) (xblk_at V c t) (wblk2_at V c t) r e).trans ?_
  refine congrArg (projArr (V c main_arg0) (V c main_arg2)) (funext fun a => Fin.ext ?_)
  obtain ⟨-, -, -, e3, e4, e5, e6, e7, e8, e9, -, -, -, -, -, -, e16, e17⟩ := idx_facts t
  match a with
  | ⟨0, _⟩ => show t.val / 4 = win0_5.index t (0 : Fin 3) * 1 + 1 * 0; omega
  | ⟨1, _⟩ => show 512 * (t.val % 4) + r.val = win0_5.index t (1 : Fin 3) * 512 + 1 * r.val; omega
  | ⟨2, _⟩ => show e.val = win0_5.index t (2 : Fin 3) * 1024 + 1 * e.val; omega

/-- Every index of the array is in the block of the point of its batch and row block. -/
theorem cover5 (i : S8x2048x1024.Idx) :
    ∃ t : Fin cfg0.N, (cfg0.win 5).flush t = true ∧ i ∈ ((cfg0.win 5).blk t).view.set := by
  have h0 : (i 0).val < 8 := (i 0).isLt
  have h1 : (i 1).val < 2048 := (i 1).isLt
  have h2 : (i 2).val < 1024 := (i 2).isLt
  have hN : cfg0.N = 32 := N_0
  refine ⟨⟨4 * (i 0).val + (i 1).val / 512, by omega⟩, flush0_5 _, ?_⟩
  rw [mem_blk5]
  obtain ⟨-, -, -, e3, e4, e5, e6, e7, e8, e9, -, -, -, -, -, -, e16, e17⟩ :=
    idx_facts (⟨4 * (i 0).val + (i 1).val / 512, by omega⟩ : Fin cfg0.N)
  dsimp only at e16 e17
  intro a
  match a with
  | ⟨0, _⟩ =>
    show win0_5.index _ (0 : Fin 3) * 1 ≤ (i 0).val ∧ (i 0).val < win0_5.index _ (0 : Fin 3) * 1 + 1
    omega
  | ⟨1, _⟩ =>
    show win0_5.index _ (1 : Fin 3) * 512 ≤ (i 1).val ∧ (i 1).val < win0_5.index _ (1 : Fin 3) * 512 + 512
    omega
  | ⟨2, _⟩ =>
    show win0_5.index _ (2 : Fin 3) * 1024 ≤ (i 2).val ∧ (i 2).val < win0_5.index _ (2 : Fin 3) * 1024 + 1024
    omega

/-- After the launch projection array 2 is the projection of x by its weight matrix. -/
theorem final5 (c : Dev nD) : (dat0 V c).arrAt 5 cfg0.N = projArr (V c main_arg0) (V c main_arg2) :=
  (dat0 V c).arrAt_eq_of_cover 5 (projArr (V c main_arg0) (V c main_arg2)) (fun t _ => flushed5 V c t) cover5

/-- An index of projection array 3 lies in point t's block iff each coordinate lies in the block's range. -/
theorem mem_blk6 (t : Fin cfg0.N) (i : S8x2048x1024.Idx) :
    i ∈ ((cfg0.win 6).blk t).view.set ↔ ∀ a : Fin 3, win0_6.index t a * S1x512x1024.size a ≤ (i a).val
      ∧ (i a).val < win0_6.index t a * S1x512x1024.size a + S1x512x1024.size a := by
  show i ∈ ((View.whole main_v0_2).slice (win0_6.rect t)).set ↔ _
  rw [View.set_slice_whole, Rect.mem_set_unit]
  exact Iff.rfl

/-- What point t writes back of projection 3 is block t of the projection array. -/
theorem flushed6 (c : Dev nD) (t : Fin cfg0.N) :
    (dat0 V c).flushed 6 t = ((cfg0.win 6).blk t).view.read (Elt Ideal) (projArr (V c main_arg0) (V c main_arg3)) := by
  show (cfg0.win 6).cut (grid0.coords t) ((dat0 V c).after 6 t) = _
  rw [after0_6]
  unfold out0_6
  rw [View.canon_unit_zero hz3]
  simp only [View.ld_unit_zero (S := S1x512x1024) hz3, View.ld_unit_zero (S := S1024x1024) hz2]
  funext y
  obtain ⟨u, r, e, rfl⟩ : ∃ (u : Fin 1) (r : Fin 512) (e : Fin 1024), y = ix3 u r e := ⟨y 0, y 1, y 2, eq_ix3 y⟩
  obtain rfl : u = 0 := Subsingleton.elim _ _
  show k0_pay4 (iblk0 V c 0 t) (iblk0 V c 3 t) (ix3 (0 : Fin 1) r e)
    = projArr (V c main_arg0) (V c main_arg3) (((cfg0.win 6).blk t).view.emb (ix3 (0 : Fin 1) r e))
  refine (pay_v (iblk0 V c 0 t) (iblk0 V c 3 t) r e).trans ?_
  refine (block_sum V c t (V c main_arg3) (iblk0 V c 0 t) (iblk0 V c 3 t) (xblk_at V c t) (wblk3_at V c t) r e).trans ?_
  refine congrArg (projArr (V c main_arg0) (V c main_arg3)) (funext fun a => Fin.ext ?_)
  obtain ⟨-, -, -, e3, e4, e5, e6, e7, e8, e9, -, -, -, -, -, -, e16, e17⟩ := idx_facts t
  match a with
  | ⟨0, _⟩ => show t.val / 4 = win0_6.index t (0 : Fin 3) * 1 + 1 * 0; omega
  | ⟨1, _⟩ => show 512 * (t.val % 4) + r.val = win0_6.index t (1 : Fin 3) * 512 + 1 * r.val; omega
  | ⟨2, _⟩ => show e.val = win0_6.index t (2 : Fin 3) * 1024 + 1 * e.val; omega

/-- Every index of the array is in the block of the point of its batch and row block. -/
theorem cover6 (i : S8x2048x1024.Idx) :
    ∃ t : Fin cfg0.N, (cfg0.win 6).flush t = true ∧ i ∈ ((cfg0.win 6).blk t).view.set := by
  have h0 : (i 0).val < 8 := (i 0).isLt
  have h1 : (i 1).val < 2048 := (i 1).isLt
  have h2 : (i 2).val < 1024 := (i 2).isLt
  have hN : cfg0.N = 32 := N_0
  refine ⟨⟨4 * (i 0).val + (i 1).val / 512, by omega⟩, flush0_6 _, ?_⟩
  rw [mem_blk6]
  obtain ⟨-, -, -, e3, e4, e5, e6, e7, e8, e9, -, -, -, -, -, -, e16, e17⟩ :=
    idx_facts (⟨4 * (i 0).val + (i 1).val / 512, by omega⟩ : Fin cfg0.N)
  dsimp only at e16 e17
  intro a
  match a with
  | ⟨0, _⟩ =>
    show win0_6.index _ (0 : Fin 3) * 1 ≤ (i 0).val ∧ (i 0).val < win0_6.index _ (0 : Fin 3) * 1 + 1
    omega
  | ⟨1, _⟩ =>
    show win0_6.index _ (1 : Fin 3) * 512 ≤ (i 1).val ∧ (i 1).val < win0_6.index _ (1 : Fin 3) * 512 + 512
    omega
  | ⟨2, _⟩ =>
    show win0_6.index _ (2 : Fin 3) * 1024 ≤ (i 2).val ∧ (i 2).val < win0_6.index _ (2 : Fin 3) * 1024 + 1024
    omega

/-- After the launch projection array 3 is the projection of x by its weight matrix. -/
theorem final6 (c : Dev nD) : (dat0 V c).arrAt 6 cfg0.N = projArr (V c main_arg0) (V c main_arg3) :=
  (dat0 V c).arrAt_eq_of_cover 6 (projArr (V c main_arg0) (V c main_arg3)) (fun t _ => flushed6 V c t) cover6

end Cert.KernelIdeal.Region0

end
-- ==== Proof.Region1.lean ====
/-
  The second launch: after it the result array holds, at (b, n, e), the sum over all 2048 keys m of the weight of
  query n in key m's column times v (b, m, e), the weights taken from the logits of the projection arrays it finds.

  The grid is 8 batches by 8 blocks of 256 keys, the key blocks innermost. At the first key block of a batch the body
  stores zero in its output block, and at every key block it adds that block's 256 terms to what the output block
  holds; the block is written back after the batch's last key block. So after key block r of batch b the output block
  holds the sum over the first r + 1 blocks of keys (by induction on the point), and what is written back is the
  sum over all eight.
-/
import proofs.«156849_j523986010551_2_alg».proof.Proof.Gen.KernelIdeal.Frame
import proofs.«156849_j523986010551_2_alg».proof.Proof.Pay
import Idealize.ShloMosaic.Lib.Pipeline.Value
import Idealize.ShloMosaic.Lib.Tactic

set_option maxRecDepth 16384

noncomputable section

namespace Cert.KernelIdeal.Region1

open Cert.KernelIdeal Cert.KernelIdeal.Gen Cert.KernelIdeal.PayValue Cert.Attn
open Idealize.ShloMosaic Idealize.ShloMosaic.TcCoe Idealize.ShloMosaic.ValueIdx Idealize.SL.Sem Idealize.ShloMosaic.Tactic
open Idealize.ShloMosaic.Pipeline (Dat)
open scoped BigOperators

variable (V : (c : Dev nD) → (b : Ref sig .tc) → Buf (Elt Ideal) ((c : Thread nD τ).loc b))

theorem hz3 : (![0, 0, 0] : Fin 3 → Nat) = fun _ => 0 := funext fun a => by fin_cases a <;> rfl

/-! ## What the body leaves in its output block, in each of its two cases -/

/-- Not at a batch's first key block: the body's one store over what the block held. -/
theorem out_B (c : Dev nD) (i : grid1.Coords) (a2 : Memref sig .tc .vmem S1x2048x1024 .f32) (h2 : a2.IsWhole)
    (a3 : Memref sig .tc .vmem S1x256x1024 .f32) (h3 : a3.IsWhole) (a4 : Memref sig .tc .vmem S1x256x1024 .bf16) (h4 : a4.IsWhole)
    (a5 : Memref sig .tc .vmem S1x2048x256 .i32) (h5 : a5.IsWhole) (a6 : Memref sig .tc .vmem S1x2048x1024 .f32) (h6 : a6.IsWhole)
    (hc : ¬cond1_0 i) (x0 : Vec Ideal S1x2048x1024 .f32) (x1 : Vec Ideal S1x256x1024 .f32) (x2 : Vec Ideal S1x256x1024 .bf16)
    (x3 : Vec Ideal S1x2048x256 .i32) (xo : Vec Ideal S1x2048x1024 .f32) :
    out1_B_4 c i a2 h2 a3 h3 a4 h4 a5 h5 a6 h6 hc x0 x1 x2 x3 xo = k1_pay1 (k1_pay3 x0 x1 x2 x3 xo) := by
  unfold out1_B_4
  rw [View.read_writes_eq_canon _ _ _ (cover1_B_4 c i a2 h2 a3 h3 a4 h4 a5 h5 a6 h6 hc x0 x1 x2 x3 xo)]
  unfold kernelRun1_B
  dsimp only
  sl_unfold_words
  rw [View.canon_unit_zero hz3]
  simp only [View.readAt_eq_ld, h2.read_unread, h3.read_unread, h4.read_unread, h5.read_unread, h6.read_unread,
    View.ld_unit_zero (S := S1x2048x1024) hz3, View.ld_unit_zero (S := S1x256x1024) hz3, View.ld_unit_zero (S := S1x2048x256) hz3]

/-- At a batch's first key block: the zero block stored first is what the body reads back and adds to. -/
theorem out_A (c : Dev nD) (i : grid1.Coords) (a2 : Memref sig .tc .vmem S1x2048x1024 .f32) (h2 : a2.IsWhole)
    (a3 : Memref sig .tc .vmem S1x256x1024 .f32) (h3 : a3.IsWhole) (a4 : Memref sig .tc .vmem S1x256x1024 .bf16) (h4 : a4.IsWhole)
    (a5 : Memref sig .tc .vmem S1x2048x256 .i32) (h5 : a5.IsWhole) (a6 : Memref sig .tc .vmem S1x2048x1024 .f32) (h6 : a6.IsWhole)
    (hc : cond1_0 i) (x0 : Vec Ideal S1x2048x1024 .f32) (x1 : Vec Ideal S1x256x1024 .f32) (x2 : Vec Ideal S1x256x1024 .bf16)
    (x3 : Vec Ideal S1x2048x256 .i32) :
    out1_A_4 c i a2 h2 a3 h3 a4 h4 a5 h5 a6 h6 hc x0 x1 x2 x3 = k1_pay1 (k1_pay3 x0 x1 x2 x3 (k1_pay2 (F := Ideal))) := by
  unfold out1_A_4
  rw [View.read_writes_eq_canon _ _ _ (cover1_A_4 c i a2 h2 a3 h3 a4 h4 a5 h5 a6 h6 hc x0 x1 x2 x3)]
  unfold kernelRun1_A
  dsimp only
  sl_unfold_words
  rw [View.canon_cons_unit_zero (S := S1x2048x1024) hz3, View.readCov_unit_zero (S := S1x2048x1024) _ hz3]
  simp only [View.readAt_eq_ld, h2.read_unread, h3.read_unread, h4.read_unread, h5.read_unread,
    View.ld_unit_zero (S := S1x2048x1024) hz3, View.ld_unit_zero (S := S1x256x1024) hz3, View.ld_unit_zero (S := S1x2048x256) hz3]

/-! ## The blocks a point reads -/

/-- One key's term of the result, from the three projection arrays and the mask as the launch finds them. -/
def termA (Q K W : SX.Idx → EReal) (Mk : SM.Idx → BitVec 32) (b : Fin 8) (n : Fin 2048) (e : Fin 1024) (m : Fin 2048) : EReal :=
  weight (fun n' => maskOr (Mk (ix3 b n' m)) (∑ d : Fin 1024, Q (ix3 b n' d) * K (ix3 b m d))) n * W (ix3 b m e)

/-- The result array those terms sum to. -/
def resArr (Q K W : SX.Idx → EReal) (Mk : SM.Idx → BitVec 32) : SX.Idx → EReal :=
  fun i => ∑ m : Fin 2048, termA Q K W Mk (i 0) (i 1) (i 2) m

/-- The printed index maps, decided over the 64 points: every window's batch is the point's batch; the k, v and mask
    windows move over the key blocks; the q and output windows stay. -/
theorem idx_facts : ∀ t : Fin cfg1.N,
    win1_0.index t (0 : Fin 3) = t.val / 8 ∧ win1_0.index t (1 : Fin 3) = 0 ∧ win1_0.index t (2 : Fin 3) = 0
    ∧ win1_1.index t (0 : Fin 3) = t.val / 8 ∧ win1_1.index t (1 : Fin 3) = t.val % 8 ∧ win1_1.index t (2 : Fin 3) = 0
    ∧ win1_2.index t (0 : Fin 3) = t.val / 8 ∧ win1_2.index t (1 : Fin 3) = t.val % 8 ∧ win1_2.index t (2 : Fin 3) = 0
    ∧ win1_3.index t (0 : Fin 3) = t.val / 8 ∧ win1_3.index t (1 : Fin 3) = 0 ∧ win1_3.index t (2 : Fin 3) = t.val % 8
    ∧ win1_4.index t (0 : Fin 3) = t.val / 8 ∧ win1_4.index t (1 : Fin 3) = 0 ∧ win1_4.index t (2 : Fin 3) = 0 :=
  (by decide +kernel : ∀ t : Fin grid1.N, _)

theorem N64 : cfg1.N = 64 := N_1

/-- The batch of a point. -/
abbrev bOf (t : Fin cfg1.N) : Fin 8 := ⟨t.val / 8, by have := t.isLt; have := N64; omega⟩
/-- Key j of a point's key block, as a key. -/
abbrev keyOf (t : Fin cfg1.N) (j : Fin 256) : Fin 2048 := ⟨256 * (t.val % 8) + j.val, by have := j.isLt; omega⟩

theorem qblk_at (c : Dev nD) (t : Fin cfg1.N) (n : Fin 2048) (d : Fin 1024) :
    iblk1 V c 0 t (ix3 (0 : Fin 1) n d) = V c main_v0_0 (ix3 (bOf t) n d) := by
  obtain ⟨e0, e1, e2, -, -, -, -, -, -, -, -, -, -, -, -⟩ := idx_facts t
  show V c main_v0_0 (((cfg1.win 0).blk t).view.emb (ix3 (0 : Fin 1) n d)) = _
  refine congrArg (V c main_v0_0) (funext fun a => Fin.ext ?_)
  match a with
  | ⟨0, _⟩ => show win1_0.index t (0 : Fin 3) * 1 + 1 * 0 = t.val / 8; omega
  | ⟨1, _⟩ => show win1_0.index t (1 : Fin 3) * 2048 + 1 * n.val = n.val; omega
  | ⟨2, _⟩ => show win1_0.index t (2 : Fin 3) * 1024 + 1 * d.val = d.val; omega

theorem kblk_at (c : Dev nD) (t : Fin cfg1.N) (j : Fin 256) (d : Fin 1024) :
    iblk1 V c 1 t (ix3 (0 : Fin 1) j d) = V c main_v0_1 (ix3 (bOf t) (keyOf t j) d) := by
  obtain ⟨-, -, -, e3, e4, e5, -, -, -, -, -, -, -, -, -⟩ := idx_facts t
  show V c main_v0_1 (((cfg1.win 1).blk t).view.emb (ix3 (0 : Fin 1) j d)) = _
  refine congrArg (V c main_v0_1) (funext fun a => Fin.ext ?_)
  match a with
  | ⟨0, _⟩ => show win1_1.index t (0 : Fin 3) * 1 + 1 * 0 = t.val / 8; omega
  | ⟨1, _⟩ => show win1_1.index t (1 : Fin 3) * 256 + 1 * j.val = 256 * (t.val % 8) + j.val; omega
  | ⟨2, _⟩ => show win1_1.index t (2 : Fin 3) * 1024 + 1 * d.val = d.val; omega

theorem vblk_at (c : Dev nD) (t : Fin cfg1.N) (j : Fin 256) (e : Fin 1024) :
    iblk1 V c 2 t (ix3 (0 : Fin 1) j e) = V c main_v0_2 (ix3 (bOf t) (keyOf t j) e) := by
  obtain ⟨-, -, -, -, -, -, e6, e7, e8, -, -, -, -, -, -⟩ := idx_facts t
  show V c main_v0_2 (((cfg1.win 2).blk t).view.emb (ix3 (0 : Fin 1) j e)) = _
  refine congrArg (V c main_v0_2) (funext fun a => Fin.ext ?_)
  match a with
  | ⟨0, _⟩ => show win1_2.index t (0 : Fin 3) * 1 + 1 * 0 = t.val / 8; omega
  | ⟨1, _⟩ => show win1_2.index t (1 : Fin 3) * 256 + 1 * j.val = 256 * (t.val % 8) + j.val; omega
  | ⟨2, _⟩ => show win1_2.index t (2 : Fin 3) * 1024 + 1 * e.val = e.val; omega

theorem mblk_at (c : Dev nD) (t : Fin cfg1.N) (n : Fin 2048) (j : Fin 256) :
    iblk1 V c 3 t (ix3 (0 : Fin 1) n j) = V c main_arg4 (ix3 (bOf t) n (keyOf t j)) := by
  obtain ⟨-, -, -, -, -, -, -, -, -, e9, e10, e11, -, -, -⟩ := idx_facts t
  show V c main_arg4 (((cfg1.win 3).blk t).view.emb (ix3 (0 : Fin 1) n j)) = _
  refine congrArg (V c main_arg4) (funext fun a => Fin.ext ?_)
  match a with
  | ⟨0, _⟩ => show win1_3.index t (0 : Fin 3) * 1 + 1 * 0 = t.val / 8; omega
  | ⟨1, _⟩ => show win1_3.index t (1 : Fin 3) * 2048 + 1 * n.val = n.val; omega
  | ⟨2, _⟩ => show win1_3.index t (2 : Fin 3) * 256 + 1 * j.val = 256 * (t.val % 8) + j.val; omega

/-! ## One point adds one block of keys -/

/-- The body at point t, over what its output block held: that, plus the 256 terms of the point's key block. -/
theorem point_at (c : Dev nD) (t : Fin cfg1.N) (prev : Vec Ideal S1x2048x1024 .f32) (n : Fin 2048) (e : Fin 1024) :
    k1_pay1 (k1_pay3 (iblk1 V c 0 t) (iblk1 V c 1 t) (iblk1 V c 2 t) (iblk1 V c 3 t) prev) (ix3 (0 : Fin 1) n e)
      = prev (ix3 (0 : Fin 1) n e) + ∑ j : Fin 256,
          ext (termA (V c main_v0_0) (V c main_v0_1) (V c main_v0_2) (V c main_arg4) (bOf t) n e) (256 * (t.val % 8) + j.val) := by
  refine (pay_attn (iblk1 V c 0 t) (iblk1 V c 1 t) (iblk1 V c 2 t) (iblk1 V c 3 t) prev n e).trans ?_
  refine congrArg (prev (ix3 (0 : Fin 1) n e) + ·) (Finset.sum_congr rfl fun j _ => ?_)
  rw [ext_block _ (t.val % 8) (by omega) j]
  show _ = termA (V c main_v0_0) (V c main_v0_1) (V c main_v0_2) (V c main_arg4) (bOf t) n e (keyOf t j)
  unfold termA
  refine congrArg₂ (· * ·) ?_ (vblk_at V c t j e)
  refine congrArg (fun s => weight s n) (funext fun n' => ?_)
  rw [mblk_at V c t n' j]
  refine congrArg (maskOr _) (Finset.sum_congr rfl fun d _ => ?_)
  rw [qblk_at V c t n' d, kblk_at V c t j d]

/-- At a batch's first key block the output block ends at zero plus the block's terms. -/
theorem step_A (c : Dev nD) (t : Fin cfg1.N) (h0 : t.val % 8 = 0) (n : Fin 2048) (e : Fin 1024) :
    outsAt1 V c t.val t.isLt (ix3 (0 : Fin 1) n e)
      = 0 + ∑ j : Fin 256, ext (termA (V c main_v0_0) (V c main_v0_1) (V c main_v0_2) (V c main_arg4) (bOf t) n e) (256 * (t.val % 8) + j.val) := by
  rw [outsAt1_A V c t h0, out_A]
  refine (point_at V c t _ n e).trans ?_
  rw [pay_zero]

/-- At a later key block it ends at what the point before left plus the block's terms. -/
theorem step_B (c : Dev nD) (t : Fin cfg1.N) (h0 : ¬t.val % 8 = 0) (n : Fin 2048) (e : Fin 1024) :
    outsAt1 V c t.val t.isLt (ix3 (0 : Fin 1) n e)
      = outsAt1 V c (t.val - 1) (Nat.lt_of_le_of_lt (Nat.sub_le _ _) t.isLt) (ix3 (0 : Fin 1) n e)
        + ∑ j : Fin 256, ext (termA (V c main_v0_0) (V c main_v0_1) (V c main_v0_2) (V c main_arg4) (bOf t) n e) (256 * (t.val % 8) + j.val) := by
  rw [outsAt1_B V c t h0, out_B]
  exact point_at V c t _ n e

/-- After point k the output block holds the sum over the first k mod 8 + 1 key blocks of the point's batch. -/
theorem outsAt_eq (c : Dev nD) : ∀ (k : ℕ) (h : k < cfg1.N) (n : Fin 2048) (e : Fin 1024),
    outsAt1 V c k h (ix3 (0 : Fin 1) n e)
      = part (termA (V c main_v0_0) (V c main_v0_1) (V c main_v0_2) (V c main_arg4) (bOf ⟨k, h⟩) n e) (k % 8 + 1)
  | 0, h, n, e => by
    rw [part_succ, show (0 : ℕ) % 8 = 0 from rfl, part_zero]
    exact step_A V c ⟨0, h⟩ rfl n e
  | k + 1, h, n, e => by
    by_cases h0 : (k + 1) % 8 = 0
    · rw [part_succ, h0, part_zero]
      have := step_A V c ⟨k + 1, h⟩ h0 n e
      rw [h0] at this
      exact this
    · have hb : bOf ⟨k, Nat.lt_of_succ_lt h⟩ = bOf ⟨k + 1, h⟩ := Fin.ext (by show k / 8 = (k + 1) / 8; omega)
      have hr : k % 8 + 1 = (k + 1) % 8 := by omega
      rw [part_succ, ← hr, ← hb, ← outsAt_eq c k (Nat.lt_of_succ_lt h) n e]
      have := step_B V c ⟨k + 1, h⟩ h0 n e
      rw [← hr, ← hb] at this
      exact this

/-! ## From the blocks to the array -/

theorem mem_blk4 (t : Fin cfg1.N) (i : S8x2048x1024.Idx) :
    i ∈ ((cfg1.win 4).blk t).view.set ↔ ∀ a : Fin 3, win1_4.index t a * S1x2048x1024.size a ≤ (i a).val
      ∧ (i a).val < win1_4.index t a * S1x2048x1024.size a + S1x2048x1024.size a := by
  show i ∈ ((View.whole main_v1).slice (win1_4.rect t)).set ↔ _
  rw [View.set_slice_whole, Rect.mem_set_unit]
  exact Iff.rfl

/-- What is written back after a batch's last key block is that batch's block of the result array. -/
theorem flushed4 (c : Dev nD) (t : Fin cfg1.N) (hf : (cfg1.win 4).flush t = true) :
    (dat1 V c).flushed 4 t
      = ((cfg1.win 4).blk t).view.read (Elt Ideal) (resArr (V c main_v0_0) (V c main_v0_1) (V c main_v0_2) (V c main_arg4)) := by
  have h7 : t.val % 8 = 7 := (flush1_4 t).mp hf
  show (cfg1.win 4).cut (grid1.coords t) ((dat1 V c).after 4 t) = _
  rw [after1_4]
  funext y
  obtain ⟨u, n, e, rfl⟩ : ∃ (u : Fin 1) (n : Fin 2048) (e : Fin 1024), y = ix3 u n e := ⟨y 0, y 1, y 2, eq_ix3 y⟩
  obtain rfl : u = 0 := Subsingleton.elim _ _
  show outsAt1 V c t.val t.isLt (ix3 (0 : Fin 1) n e)
    = resArr (V c main_v0_0) (V c main_v0_1) (V c main_v0_2) (V c main_arg4) (((cfg1.win 4).blk t).view.emb (ix3 (0 : Fin 1) n e))
  rw [outsAt_eq V c t.val t.isLt n e, h7]
  show part _ 8 = _
  rw [part_eight]
  show resArr (V c main_v0_0) (V c main_v0_1) (V c main_v0_2) (V c main_arg4) (ix3 (bOf t) n e) = _
  refine congrArg (resArr (V c main_v0_0) (V c main_v0_1) (V c main_v0_2) (V c main_arg4)) (funext fun a => Fin.ext ?_)
  obtain ⟨-, -, -, -, -, -, -, -, -, -, -, -, e12, e13, e14⟩ := idx_facts t
  match a with
  | ⟨0, _⟩ => show t.val / 8 = win1_4.index t (0 : Fin 3) * 1 + 1 * 0; omega
  | ⟨1, _⟩ => show n.val = win1_4.index t (1 : Fin 3) * 2048 + 1 * n.val; omega
  | ⟨2, _⟩ => show e.val = win1_4.index t (2 : Fin 3) * 1024 + 1 * e.val; omega

/-- Every index of the result array is in the block written back after its batch's last key block. -/
theorem cover4 (i : S8x2048x1024.Idx) :
    ∃ t : Fin cfg1.N, (cfg1.win 4).flush t = true ∧ i ∈ ((cfg1.win 4).blk t).view.set := by
  have h0 : (i 0).val < 8 := (i 0).isLt
  have h1 : (i 1).val < 2048 := (i 1).isLt
  have h2 : (i 2).val < 1024 := (i 2).isLt
  have hN := N64
  refine ⟨⟨8 * (i 0).val + 7, by omega⟩, (flush1_4 _).mpr (by show (8 * (i 0).val + 7) % 8 = 7; omega), ?_⟩
  rw [mem_blk4]
  obtain ⟨-, -, -, -, -, -, -, -, -, -, -, -, e12, e13, e14⟩ := idx_facts (⟨8 * (i 0).val + 7, by omega⟩ : Fin cfg1.N)
  dsimp only at e12
  intro a
  match a with
  | ⟨0, _⟩ =>
    show win1_4.index _ (0 : Fin 3) * 1 ≤ (i 0).val ∧ (i 0).val < win1_4.index _ (0 : Fin 3) * 1 + 1
    omega
  | ⟨1, _⟩ =>
    show win1_4.index _ (1 : Fin 3) * 2048 ≤ (i 1).val ∧ (i 1).val < win1_4.index _ (1 : Fin 3) * 2048 + 2048
    omega
  | ⟨2, _⟩ =>
    show win1_4.index _ (2 : Fin 3) * 1024 ≤ (i 2).val ∧ (i 2).val < win1_4.index _ (2 : Fin 3) * 1024 + 1024
    omega

/-- After the launch the result array is the sum over all keys, from the arrays the launch found. -/
theorem final4 (c : Dev nD) :
    (dat1 V c).arrAt 4 cfg1.N = resArr (V c main_v0_0) (V c main_v0_1) (V c main_v0_2) (V c main_arg4) :=
  (dat1 V c).arrAt_eq_of_cover 4 (resArr (V c main_v0_0) (V c main_v0_1) (V c main_v0_2) (V c main_arg4))
    (fun t hf => flushed4 V c t hf) cover4

end Cert.KernelIdeal.Region1

end
-- ==== Proof.lean ====
/-
  The certificate's claim.

  Both idealized programs compute, index by index over the extended reals, the array Attn.result of the five
  arguments (Proof/Spec.lean): attention whose softmax runs along the QUERY axis, the masked logits replaced by a
  large negative constant. The reference does it in one pass over all 2048 keys (Proof/RefSide.lean). The kernel does
  it in two launches: the three projections (Proof/Region0.lean), then, per batch, eight blocks of 256 keys whose
  contributions are added into the output block one after another from zero (Proof/Region1.lean); a sum taken
  block by block is the same sum, so the two results agree, and no finiteness of the inputs is needed.
  The word-level kernel's idealization rewrote nothing, so its preservation claim is trivial; the three frames
  are the generated ones (the reference's is its run with the result dropped).
-/
import proofs.«156849_j523986010551_2_alg».proof.Defs
import proofs.«156849_j523986010551_2_alg».proof.Proof.Gen.Kernel
import proofs.«156849_j523986010551_2_alg».proof.Proof.Gen.Kernel.Skeleton
import proofs.«156849_j523986010551_2_alg».proof.Proof.Gen.Kernel.Launch
import proofs.«156849_j523986010551_2_alg».proof.Proof.Gen.Kernel.Points
import proofs.«156849_j523986010551_2_alg».proof.Proof.Gen.Kernel.Frame
import proofs.«156849_j523986010551_2_alg».proof.Proof.Gen.KernelIdeal
import proofs.«156849_j523986010551_2_alg».proof.Proof.Gen.KernelIdeal.Skeleton
import proofs.«156849_j523986010551_2_alg».proof.Proof.Gen.KernelIdeal.Launch
import proofs.«156849_j523986010551_2_alg».proof.Proof.Gen.KernelIdeal.Points
import proofs.«156849_j523986010551_2_alg».proof.Proof.Gen.KernelIdeal.Frame
import proofs.«156849_j523986010551_2_alg».proof.Proof.Gen.ReferenceIdeal
import proofs.«156849_j523986010551_2_alg».proof.Proof.Gen.Pre_finite_inputs
import proofs.«156849_j523986010551_2_alg».proof.Proof.RefSide
import proofs.«156849_j523986010551_2_alg».proof.Proof.KernelRun
import proofs.«156849_j523986010551_2_alg».proof.Proof.Region0
import proofs.«156849_j523986010551_2_alg».proof.Proof.Region1
import Idealize.ShloMosaic.Adequacy
import Idealize.ShloMosaic.Init

set_option maxRecDepth 16384

noncomputable section

namespace Cert.Proof

open Idealize.ShloMosaic Idealize.ShloMosaic.TcCoe Idealize.SL.Sem Cert.Attn

/-- The result array summed from the three projection arrays is the specification's result. -/
theorem res_eq (x : SX.Idx → EReal) (wq wk wv : SW.Idx → EReal) (mask : SM.Idx → BitVec 32) :
    Cert.KernelIdeal.Region1.resArr (Cert.KernelIdeal.Region0.projArr x wq) (Cert.KernelIdeal.Region0.projArr x wk)
      (Cert.KernelIdeal.Region0.projArr x wv) mask = result x wq wk wv mask := by
  funext i
  exact Finset.sum_congr rfl fun m _ => rfl

section Kernel

open Cert.KernelIdeal Cert.KernelIdeal.Gen

variable (m : (ℓ : Loc nD τ sig) → Buf (Elt Ideal) ℓ) (ρ : Dev nD → PrngReg)

/-- What the second launch leaves in the result buffer is the specification of the launch contents of the arguments:
    the second launch finds the first launch's three projection arrays and the mask as launched. -/
theorem kernel_result (c : Dev nD) :
    W2 m ρ c (Proc.devRef .tc main_v1)
      = result (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4)) := by
  have hq : V1 m ρ c main_v0_0 = Region0.projArr (m ((c.tc : Thread nD τ).loc main_arg0)) (m ((c.tc : Thread nD τ).loc main_arg1)) :=
    (W1_arr m ρ c 4).trans (Region0.final4 (V0 m ρ) c)
  have hk : V1 m ρ c main_v0_1 = Region0.projArr (m ((c.tc : Thread nD τ).loc main_arg0)) (m ((c.tc : Thread nD τ).loc main_arg2)) :=
    (W1_arr m ρ c 5).trans (Region0.final5 (V0 m ρ) c)
  have hv : V1 m ρ c main_v0_2 = Region0.projArr (m ((c.tc : Thread nD τ).loc main_arg0)) (m ((c.tc : Thread nD τ).loc main_arg3)) :=
    (W1_arr m ρ c 6).trans (Region0.final6 (V0 m ρ) c)
  have hm : V1 m ρ c main_arg4 = m ((c.tc : Thread nD τ).loc main_arg4) := W1_of_ne m ρ c main_arg4 (by decide)
  refine (W2_arr m ρ c 4).trans ((Region1.final4 (V1 m ρ) c).trans ?_)
  rw [hq, hk, hv, hm]
  exact res_eq _ _ _ _ _

end Kernel

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories agreeing on the arguments both idealized programs end with the specification's array of those
    arguments in their result buffers. -/
theorem algebraic : Cert.algebraic_KernelIdeal_ReferenceIdeal := by
  intro m ρ m' ρ' _ hagree
  refine ⟨fun c => result (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · exact (θ_run Cert.KernelIdeal.defs _ _).mono (fun _ h c => ⟨(h c).1.trans (kernel_result m ρ c), (h c).2⟩)
      (Cert.KernelIdeal.RunValue.run (F := Ideal) m ρ)
  · refine (θ_run Cert.ReferenceIdeal.defs _ _).mono (fun _ h c => ⟨?_, (h c).2⟩)
      (Cert.ReferenceIdeal.Value.run (F := Ideal) m' ρ')
    rw [(h c).1, Cert.ReferenceIdeal.Read.val_main_v18_eq, Cert.ReferenceIdeal.RefValue.ref_eq,
      (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
